-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v43) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x512 : Shape := ⟨2, ![8192, 512]⟩
abbrev S8192x128x64 : Shape := ⟨3, ![8192, 128, 64]⟩
abbrev S512x256 : Shape := ⟨2, ![512, 256]⟩
abbrev S256 : Shape := ⟨1, ![256]⟩
abbrev S512x4 : Shape := ⟨2, ![512, 4]⟩
abbrev S4 : Shape := ⟨1, ![4]⟩
abbrev S_ : Shape := ⟨0, ![]⟩

class Facts : Prop where
  bcast_S_S8192x512 : S_.BroadcastsInDim S8192x512 (![] : Fin 0 → Fin S8192x512.rank)
  reducesTo_S8192x512_S_d0_1 : S8192x512.ReducesTo [0, 1] S_
  h_S_ : 0 < S_.numel
  bcast_S_S8192x128x64 : S_.BroadcastsInDim S8192x128x64 (![] : Fin 0 → Fin S8192x128x64.rank)
  reducesTo_S8192x128x64_S_d0_1_2 : S8192x128x64.ReducesTo [0, 1, 2] S_
  bcast_S_S512x256 : S_.BroadcastsInDim S512x256 (![] : Fin 0 → Fin S512x256.rank)
  reducesTo_S512x256_S_d0_1 : S512x256.ReducesTo [0, 1] S_
  bcast_S_S256 : S_.BroadcastsInDim S256 (![] : Fin 0 → Fin S256.rank)
  reducesTo_S256_S_d0 : S256.ReducesTo [0] S_
  bcast_S_S512x4 : S_.BroadcastsInDim S512x4 (![] : Fin 0 → Fin S512x4.rank)
  reducesTo_S512x4_S_d0_1 : S512x4.ReducesTo [0, 1] S_
  bcast_S_S4 : S_.BroadcastsInDim S4 (![] : Fin 0 → Fin S4.rank)
  reducesTo_S4_S_d0 : S4.ReducesTo [0] S_

variable [Facts]

def fn_part1 {F : FTy → Type} [FloatOps F] (main_arg4 : FVec F S512x4 .f32) (main_arg5 : FVec F S4 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S512x4 .f32 := Host.absf main_arg4
  let main_cst_6 : FVec F S_ .f32 := constant S_ .f32 0x7F800000#32
  let main_v20 : FVec F S512x4 .f32 := broadcastInDim S512x4 ![] bcast_S_S512x4 main_cst_6
  let main_v21 : IVec S512x4 1 := cmpf .olt main_v19 main_v20
  let main_c_7 : IVec S_ 1 := constantI S_ 1 1#1
  let main_v22 : IVec S_ 1 := (fun x v => Host.reduce IntOp.andi x v reducesTo_S512x4_S_d0_1 h_S_) main_v21 main_c_7
  let main_v23 : IVec S_ 1 := andi main_v18 main_v22
  let main_v24 : FVec F S4 .f32 := Host.absf main_arg5
  let main_cst_8 : FVec F S_ .f32 := constant S_ .f32 0x7F800000#32
  let main_v25 : FVec F S4 .f32 := broadcastInDim S4 ![] bcast_S_S4 main_cst_8
  let main_v26 : IVec S4 1 := cmpf .olt main_v24 main_v25
  let main_c_9 : IVec S_ 1 := constantI S_ 1 1#1
  let main_v27 : IVec S_ 1 := (fun x v => Host.reduce IntOp.andi x v reducesTo_S4_S_d0 h_S_) main_v26 main_c_9
  let main_v28 : IVec S_ 1 := andi main_v23 main_v27
  main_v28

def fn {F : FTy → Type} [FloatOps F] (main_arg0 : FVec F S8192x512 .f32) (main_arg1 : FVec F S8192x128x64 .f32) (main_arg2 : FVec F S512x256 .f32) (main_arg3 : FVec F S256 .f32) (main_arg4 : FVec F S512x4 .f32) (main_arg5 : FVec F S4 .f32) : IVec S_ 1 :=
  let main_v0 : FVec F S8192x512 .f32 := Host.absf main_arg0
  let main_cst : FVec F S_ .f32 := constant S_ .f32 0x7F800000#32
  let main_v1 : FVec F S8192x512 .f32 := broadcastInDim S8192x512 ![] bcast_S_S8192x512 main_cst
  let main_v2 : IVec S8192x512 1 := cmpf .olt main_v0 main_v1
  let main_c : IVec S_ 1 := constantI S_ 1 1#1
  let main_v3 : IVec S_ 1 := (fun x v => Host.reduce IntOp.andi x v reducesTo_S8192x512_S_d0_1 h_S_) main_v2 main_c
  let main_v4 : FVec F S8192x128x64 .f32 := Host.absf main_arg1
  let main_cst_0 : FVec F S_ .f32 := constant S_ .f32 0x7F800000#32
  let main_v5 : FVec F S8192x128x64 .f32 := broadcastInDim S8192x128x64 ![] bcast_S_S8192x128x64 main_cst_0
  let main_v6 : IVec S8192x128x64 1 := cmpf .olt main_v4 main_v5
  let main_c_1 : IVec S_ 1 := constantI S_ 1 1#1
  let main_v7 : IVec S_ 1 := (fun x v => Host.reduce IntOp.andi x v reducesTo_S8192x128x64_S_d0_1_2 h_S_) main_v6 main_c_1
  let main_v8 : IVec S_ 1 := andi main_v3 main_v7
  let main_v9 : FVec F S512x256 .f32 := Host.absf main_arg2
  let main_cst_2 : FVec F S_ .f32 := constant S_ .f32 0x7F800000#32
  let main_v10 : FVec F S512x256 .f32 := broadcastInDim S512x256 ![] bcast_S_S512x256 main_cst_2
  let main_v11 : IVec S512x256 1 := cmpf .olt main_v9 main_v10
  let main_c_3 : IVec S_ 1 := constantI S_ 1 1#1
  let main_v12 : IVec S_ 1 := (fun x v => Host.reduce IntOp.andi x v reducesTo_S512x256_S_d0_1 h_S_) main_v11 main_c_3
  let main_v13 : IVec S_ 1 := andi main_v8 main_v12
  let main_v14 : FVec F S256 .f32 := Host.absf main_arg3
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg4 main_arg5 main_v13 main_v16
-- ==== Kernel.lean ====
abbrev S8192x512 : Shape := ⟨2, ![8192, 512]⟩
abbrev S8192x128x64 : Shape := ⟨3, ![8192, 128, 64]⟩
abbrev S512x256 : Shape := ⟨2, ![512, 256]⟩
abbrev S256 : Shape := ⟨1, ![256]⟩
abbrev S512x4 : Shape := ⟨2, ![512, 4]⟩
abbrev S4 : Shape := ⟨1, ![4]⟩
abbrev S8192x8192 : Shape := ⟨2, ![8192, 8192]⟩
abbrev S256x512 : Shape := ⟨2, ![256, 512]⟩
abbrev S256x8192 : Shape := ⟨2, ![256, 8192]⟩
abbrev S256x256 : Shape := ⟨2, ![256, 256]⟩
abbrev S256x4 : Shape := ⟨2, ![256, 4]⟩
abbrev S1x256 : Shape := ⟨2, ![1, 256]⟩
abbrev S1x4 : Shape := ⟨2, ![1, 4]⟩
abbrev S256x128x64 : Shape := ⟨3, ![256, 128, 64]⟩
abbrev S256x128 : Shape := ⟨2, ![256, 128]⟩
abbrev S256x64 : Shape := ⟨2, ![256, 64]⟩
abbrev S256x1 : Shape := ⟨2, ![256, 1]⟩
abbrev S256x1x64 : Shape := ⟨3, ![256, 1, 64]⟩
abbrev S8192x4x128 : Shape := ⟨3, ![8192, 4, 128]⟩

abbrev nBuf : Space → Nat
  | .hbm => 9
  | .vmem => 12
  | .smem => 0
  | _ => 0

abbrev bufTy : (tb : Table) → Fin (tcTables nBuf tb) → BufTy
  | .hbm, ⟨0, _⟩ => ⟨S8192x512, .f32⟩
  | .hbm, ⟨1, _⟩ => ⟨S8192x128x64, .f32⟩
  | .hbm, ⟨2, _⟩ => ⟨S512x256, .f32⟩
  | .hbm, ⟨3, _⟩ => ⟨S256, .f32⟩
  | .hbm, ⟨4, _⟩ => ⟨S512x4, .f32⟩
  | .hbm, ⟨5, _⟩ => ⟨S4, .f32⟩
  | .hbm, ⟨6, _⟩ => ⟨S8192x8192, .f32⟩
  | .hbm, ⟨7, _⟩ => ⟨S8192x512, .f32⟩
  | .hbm, ⟨8, _⟩ => ⟨S8192x4x128, .f32⟩
  | .local _ .vmem, ⟨0, _⟩ => ⟨S256x512, .f32⟩
  | .local _ .vmem, ⟨1, _⟩ => ⟨S256x512, .f32⟩
  | .local _ .vmem, ⟨2, _⟩ => ⟨S256x8192, .f32⟩
  | .local _ .vmem, ⟨3, _⟩ => ⟨S256x8192, .f32⟩
  | .local _ .vmem, ⟨4, _⟩ => ⟨S512x256, .f32⟩
  | .local _ .vmem, ⟨5, _⟩ => ⟨S256, .f32⟩
  | .local _ .vmem, ⟨6, _⟩ => ⟨S512x4, .f32⟩
  | .local _ .vmem, ⟨7, _⟩ => ⟨S4, .f32⟩
  | .local _ .vmem, ⟨8, _⟩ => ⟨S256x512, .f32⟩
  | .local _ .vmem, ⟨9, _⟩ => ⟨S256x512, .f32⟩
  | .local _ .vmem, ⟨10, _⟩ => ⟨S256x256, .f32⟩
  | .local _ .vmem, ⟨11, _⟩ => ⟨S256x4, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![32], ![false]⟩

@[reducible] def k0_t1_loop : Scf.Loop 32 :=
  let c0_i32 : BitVec 32 := 0#32
  let c4_i32 : BitVec 32 := 4#32
  let v41 : BitVec 32 := Scalar.addi c0_i32 c4_i32
  let c1_i32 : BitVec 32 := 1#32
  ⟨c0_i32, v41, c1_i32⟩
def k0_off1 (k0_t1 : Fin k0_t1_loop.trips) : Fin 2 → Nat :=
  let c0_21 : Index := 0#32
  let c0_i32_20 : BitVec 32 := 0#32
  let c0_i32 : BitVec 32 := 0#32
  let c1_i32 : BitVec 32 := 1#32
  let arg10 : BitVec 32 := Scf.iv c0_i32 c1_i32 k0_t1
  let c1_i32_19 : BitVec 32 := 1#32
  let v42 : BitVec 32 := Scalar.muli arg10 c1_i32_19
  let v43 : BitVec 32 := Scalar.addi c0_i32_20 v42
  let c64_i32 : BitVec 32 := 64#32
  let v44 : BitVec 32 := Scalar.muli v43 c64_i32
  let v45 : Index := Scalar.indexCast v44
  ![0, v45.toNat]
def k0_off2 (k0_t1 : Fin k0_t1_loop.trips) : Fin 2 → Nat :=
  let c0_22 : Index := 0#32
  let c0_i32_20 : BitVec 32 := 0#32
  let c0_i32 : BitVec 32 := 0#32
  let c1_i32 : BitVec 32 := 1#32
  let arg10 : BitVec 32 := Scf.iv c0_i32 c1_i32 k0_t1
  let c1_i32_19 : BitVec 32 := 1#32
  let v42 : BitVec 32 := Scalar.muli arg10 c1_i32_19
  let v43 : BitVec 32 := Scalar.addi c0_i32_20 v42
  let v47 : Index := Scalar.indexCast v43
  ![0, v47.toNat]
def k0_off3 (k0_t1 : Fin k0_t1_loop.trips) : Fin 2 → Nat :=
  let c0_30 : Index := 0#32
  let c0_i32_20 : BitVec 32 := 0#32
  let c0_i32 : BitVec 32 := 0#32
  let c1_i32 : BitVec 32 := 1#32
  let arg10 : BitVec 32 := Scf.iv c0_i32 c1_i32 k0_t1
  let c1_i32_19 : BitVec 32 := 1#32
  let v42 : BitVec 32 := Scalar.muli arg10 c1_i32_19
  let v43 : BitVec 32 := Scalar.addi c0_i32_20 v42
  let c128_i32 : BitVec 32 := 128#32
  let v77 : BitVec 32 := Scalar.muli v43 c128_i32
  let v78 : Index := Scalar.indexCast v77
  ![0, v78.toNat]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x8192 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S512x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x4 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  shapeCasts_S8192x128x64_S8192x8192 : S8192x128x64.ShapeCasts S8192x8192
  inb_S256x512_S256x512_0_0 : ∀ a, (![0, 0] : Fin 2 → Nat) a + S256x512.size a ≤ S256x512.size a
  h_S256x512 : 0 < S256x512.numel
  inb_S256x8192_S256x8192_0_0 : ∀ a, (![0, 0] : Fin 2 → Nat) a + S256x8192.size a ≤ S256x8192.size a
  h_S256x8192 : 0 < S256x8192.numel
  shapeCasts_S256x8192_S256x8192 : S256x8192.ShapeCasts S256x8192
  inb_S512x256_S512x256_0_0 : ∀ a, (![0, 0] : Fin 2 → Nat) a + S512x256.size a ≤ S512x256.size a
  h_S512x256 : 0 < S512x256.numel
  inb_S256_S256_0 : ∀ a, (![0] : Fin 1 → Nat) a + S256.size a ≤ S256.size a
  h_S256 : 0 < S256.numel
  shapeCasts_S256_S1x256 : S256.ShapeCasts S1x256
  broadcasts_S1x256_S256x256 : S1x256.Broadcasts S256x256
  inb_S512x4_S512x4_0_0 : ∀ a, (![0, 0] : Fin 2 → Nat) a + S512x4.size a ≤ S512x4.size a
  h_S512x4 : 0 < S512x4.numel
  inb_S4_S4_0 : ∀ a, (![0] : Fin 1 → Nat) a + S4.size a ≤ S4.size a
  h_S4 : 0 < S4.numel
  shapeCasts_S4_S1x4 : S4.ShapeCasts S1x4
  broadcasts_S1x4_S256x4 : S1x4.Broadcasts S256x4
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S256x4_S256x4_0_0 : ∀ a, (![0, 0] : Fin 2 → Nat) a + S256x4.size a ≤ S256x4.size a
  h_S256x4 : 0 < S256x4.numel
  shapeCasts_S256x4_S256x4 : S256x4.ShapeCasts S256x4
  shapeCasts_S256x8192_S256x128x64 : S256x8192.ShapeCasts S256x128x64
  reduces_S256x128x64_S256x128 : S256x128x64.Reduces [2] S256x128
  h_S256x64 : 0 < S256x64.numel
  h_S256x1 : 0 < S256x1.numel
  shapeCasts_S256x64_S256x1x64 : S256x64.ShapeCasts S256x1x64
  broadcasts_S256x1x64_S256x128x64 : S256x1x64.Broadcasts S256x128x64
  reduces_S256x64_S256 : S256x64.Reduces [1] S256
  shapeCasts_S256_S256x1 : S256.ShapeCasts S256x1
  broadcasts_S256x1_S256x128 : S256x1.Broadcasts S256x128
  reduces_S256x128_S256 : S256x128.Reduces [1] S256
  h_S256x128 : 0 < S256x128.numel
  shapeCasts_S8192x512_S8192x4x128 : S8192x512.ShapeCasts S8192x4x128
  dot_S256x512_S512x256_S256x256_1_0_0_1_n_n_wf : DotDims.WF S256x512 S512x256 S256x256 [1] [0] [0] [1] [] []
  dot_S256x512_S512x4_S256x4_1_0_0_1_n_n_wf : DotDims.WF S256x512 S512x4 S256x4 [1] [0] [0] [1] [] []
  hrank0 : 0 < grid0.rank
  k0_t1_ok : k0_t1_loop.OK
  k0_off1_inb : ∀ k0_t1 : Fin k0_t1_loop.trips, ∀ a, (k0_off1 k0_t1) a + S256x64.size a ≤ S256x256.size a
  k0_off2_inb : ∀ k0_t1 : Fin k0_t1_loop.trips, ∀ a, (k0_off2 k0_t1) a + S256x1.size a ≤ S256x4.size a
  k0_off3_inb : ∀ k0_t1 : Fin k0_t1_loop.trips, ∀ a, (k0_off3 k0_t1) a + S256x128.size a ≤ S256x512.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x512.size a ≤ S8192x512.size a
  hwx0_0 : ∀ i : grid0.Coords, EltTy.bits .f32 = 32 ∨ (Rect.block (s := S8192x512) S256x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x8192.size a ≤ S8192x8192.size a
  hwx0_1 : ∀ i : grid0.Coords, EltTy.bits .f32 = 32 ∨ (Rect.block (s := S8192x8192) S256x8192.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x256.size a ≤ S512x256.size a
  hwx0_2 : ∀ i : grid0.Coords, EltTy.bits .f32 = 32 ∨ (Rect.block (s := S512x256) S512x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256.size a ≤ S256.size a
  hwx0_3 : ∀ i : grid0.Coords, EltTy.bits .f32 = 32 ∨ (Rect.block (s := S256) S256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S512x4.size a ≤ S512x4.size a
  hwx0_4 : ∀ i : grid0.Coords, EltTy.bits .f32 = 32 ∨ (Rect.block (s := S512x4) S512x4.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S4.size a ≤ S4.size a
  hwx0_5 : ∀ i : grid0.Coords, EltTy.bits .f32 = 32 ∨ (Rect.block (s := S4) S4.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S256x512.size a ≤ S8192x512.size a
  hwx0_6 : ∀ i : grid0.Coords, EltTy.bits .f32 = 32 ∨ (Rect.block (s := S8192x512) S256x512.size (cc0_transform_6 i) (hinb0_6 i)).WholeWords (EltTy.packing .f32)

variable [Facts₀]

def dot_S256x512_S512x256_S256x256_1_0_0_1_n_n : DotDims S256x512 S512x256 S256x256 where
  lhsContracting := [1]
  rhsContracting := [0]
  lhsNonContracting := [0]
  rhsNonContracting := [1]
  lhsBatch := []
  rhsBatch := []
  wf := dot_S256x512_S512x256_S256x256_1_0_0_1_n_n_wf
def dot_S256x512_S512x4_S256x4_1_0_0_1_n_n : DotDims S256x512 S512x4 S256x4 where
  lhsContracting := [1]
  rhsContracting := [0]
  lhsNonContracting := [0]
  rhsNonContracting := [1]
  lhsBatch := []
  rhsBatch := []
  wf := dot_S256x512_S512x4_S256x4_1_0_0_1_n_n_wf

abbrev win0_0 : Pipeline.Window sig grid0 :=
  Pipeline.Window.ofSpec (Memref.whole main_arg0) S256x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S256x8192.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S512x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S512x4.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S4.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v1) S256x512.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S8192x512 : Shape := ⟨2, ![8192, 512]⟩
abbrev S8192x128x64 : Shape := ⟨3, ![8192, 128, 64]⟩
abbrev S512x256 : Shape := ⟨2, ![512, 256]⟩
abbrev S256 : Shape := ⟨1, ![256]⟩
abbrev S512x4 : Shape := ⟨2, ![512, 4]⟩
abbrev S4 : Shape := ⟨1, ![4]⟩
abbrev S8192x256 : Shape := ⟨2, ![8192, 256]⟩
abbrev S1x256 : Shape := ⟨2, ![1, 256]⟩
abbrev S8192x4x64 : Shape := ⟨3, ![8192, 4, 64]⟩
abbrev S8192x4 : Shape := ⟨2, ![8192, 4]⟩
abbrev S1x4 : Shape := ⟨2, ![1, 4]⟩
abbrev S_ : Shape := ⟨0, ![]⟩
abbrev S8192x4x1 : Shape := ⟨3, ![8192, 4, 1]⟩
abbrev S8192x4x128 : Shape := ⟨3, ![8192, 4, 128]⟩
abbrev S8192x128 : Shape := ⟨2, ![8192, 128]⟩
abbrev S8192x128x1 : Shape := ⟨3, ![8192, 128, 1]⟩
abbrev S8192x1x128 : Shape := ⟨3, ![8192, 1, 128]⟩

abbrev nBuf : Space → Nat
  | .hbm => 71
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S8192x128x64, .f32⟩
  | .hbm, ⟨2, _⟩ => ⟨S512x256, .f32⟩
  | .hbm, ⟨3, _⟩ => ⟨S256, .f32⟩
  | .hbm, ⟨4, _⟩ => ⟨S512x4, .f32⟩
  | .hbm, ⟨5, _⟩ => ⟨S4, .f32⟩
  | .hbm, ⟨6, _⟩ => ⟨S8192x256, .f32⟩
  | .hbm, ⟨7, _⟩ => ⟨S1x256, .f32⟩
  | .hbm, ⟨8, _⟩ => ⟨S8192x256, .f32⟩
  | .hbm, ⟨9, _⟩ => ⟨S8192x256, .f32⟩
  | .hbm, ⟨10, _⟩ => ⟨S8192x256, .f32⟩
  | .hbm, ⟨11, _⟩ => ⟨S8192x4x64, .f32⟩
  | .hbm, ⟨12, _⟩ => ⟨S8192x4, .f32⟩
  | .hbm, ⟨13, _⟩ => ⟨S1x4, .f32⟩
  | .hbm, ⟨14, _⟩ => ⟨S8192x4, .f32⟩
  | .hbm, ⟨15, _⟩ => ⟨S8192x4, .f32⟩
  | .hbm, ⟨16, _⟩ => ⟨S_, .f32⟩
  | .hbm, ⟨17, _⟩ => ⟨S8192x4, .f32⟩
  | .hbm, ⟨18, _⟩ => ⟨S8192x4, .f32⟩
  | .hbm, ⟨19, _⟩ => ⟨S8192x4, .f32⟩
  | .hbm, ⟨20, _⟩ => ⟨S8192x4, .f32⟩
  | .hbm, ⟨21, _⟩ => ⟨S8192x4, .i1⟩
  | .hbm, ⟨22, _⟩ => ⟨S8192x4, .f32⟩
  | .hbm, ⟨23, _⟩ => ⟨S8192x4, .f32⟩
  | .hbm, ⟨24, _⟩ => ⟨S8192x4, .f32⟩
  | .hbm, ⟨25, _⟩ => ⟨S8192x4, .f32⟩
  | .hbm, ⟨26, _⟩ => ⟨S8192x4, .f32⟩
  | .hbm, ⟨27, _⟩ => ⟨S8192x4, .f32⟩
  | .hbm, ⟨28, _⟩ => ⟨S8192x4, .f32⟩
  | .hbm, ⟨29, _⟩ => ⟨S8192x4, .f32⟩
  | .hbm, ⟨30, _⟩ => ⟨S8192x4x1, .f32⟩
  | .hbm, ⟨31, _⟩ => ⟨S8192x4x128, .f32⟩
  | .hbm, ⟨32, _⟩ => ⟨S8192x4x64, .f32⟩
  | .hbm, ⟨33, _⟩ => ⟨S_, .f32⟩
  | .hbm, ⟨34, _⟩ => ⟨S8192x4, .f32⟩
  | .hbm, ⟨35, _⟩ => ⟨S8192x4x1, .f32⟩
  | .hbm, ⟨36, _⟩ => ⟨S_, .f32⟩
  | .hbm, ⟨37, _⟩ => ⟨S8192x4x1, .f32⟩
  | .hbm, ⟨38, _⟩ => ⟨S8192x4x1, .f32⟩
  | .hbm, ⟨39, _⟩ => ⟨S8192x128x64, .f32⟩
  | .hbm, ⟨40, _⟩ => ⟨S_, .f32⟩
  | .hbm, ⟨41, _⟩ => ⟨S8192x128, .f32⟩
  | .hbm, ⟨42, _⟩ => ⟨S8192x128x1, .f32⟩
  | .hbm, ⟨43, _⟩ => ⟨S_, .f32⟩
  | .hbm, ⟨44, _⟩ => ⟨S8192x128x1, .f32⟩
  | .hbm, ⟨45, _⟩ => ⟨S8192x128x1, .f32⟩
  | .hbm, ⟨46, _⟩ => ⟨S8192x1x128, .f32⟩
  | .hbm, ⟨47, _⟩ => ⟨S8192x4x128, .f32⟩
  | .hbm, ⟨48, _⟩ => ⟨S8192x4x128, .f32⟩
  | .hbm, ⟨49, _⟩ => ⟨S8192x4x128, .f32⟩
  | .hbm, ⟨50, _⟩ => ⟨S8192x4x128, .f32⟩
  | .hbm, ⟨51, _⟩ => ⟨S_, .f32⟩
  | .hbm, ⟨52, _⟩ => ⟨S8192x4x128, .f32⟩
  | .hbm, ⟨53, _⟩ => ⟨S8192x4x128, .f32⟩
  | .hbm, ⟨54, _⟩ => ⟨S8192x4x128, .f32⟩
  | .hbm, ⟨55, _⟩ => ⟨S8192x4x128, .f32⟩
  | .hbm, ⟨56, _⟩ => ⟨S8192x4x128, .f32⟩
  | .hbm, ⟨57, _⟩ => ⟨S_, .f32⟩
  | .hbm, ⟨58, _⟩ => ⟨S8192x4, .f32⟩
  | .hbm, ⟨59, _⟩ => ⟨S_, .f32⟩
  | .hbm, ⟨60, _⟩ => ⟨S8192x4, .f32⟩
  | .hbm, ⟨61, _⟩ => ⟨S8192x4, .f32⟩
  | .hbm, ⟨62, _⟩ => ⟨S8192x4x1, .f32⟩
  | .hbm, ⟨63, _⟩ => ⟨S8192x4x128, .f32⟩
  | .hbm, ⟨64, _⟩ => ⟨S8192x4x128, .f32⟩
  | .hbm, ⟨65, _⟩ => ⟨S8192x4x128, .f32⟩
  | .hbm, ⟨66, _⟩ => ⟨S_, .f32⟩
  | .hbm, ⟨67, _⟩ => ⟨S8192x4, .f32⟩
  | .hbm, ⟨68, _⟩ => ⟨S8192x4x1, .f32⟩
  | .hbm, ⟨69, _⟩ => ⟨S8192x4x128, .f32⟩
  | .hbm, ⟨70, _⟩ => ⟨S8192x4x128, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_call0_cst : Ref sig .tc := ⟨.hbm, 16, rfl⟩
abbrev main_call0_v0 : Ref sig .tc := ⟨.hbm, 17, rfl⟩
abbrev main_call0_v1 : Ref sig .tc := ⟨.hbm, 18, rfl⟩
abbrev main_call0_v2 : Ref sig .tc := ⟨.hbm, 19, rfl⟩
abbrev main_call0_v3 : Ref sig .tc := ⟨.hbm, 20, rfl⟩
abbrev main_call0_v4 : Ref sig .tc := ⟨.hbm, 21, rfl⟩
abbrev main_call0_v5 : Ref sig .tc := ⟨.hbm, 22, rfl⟩
abbrev main_call0_v6 : Ref sig .tc := ⟨.hbm, 23, rfl⟩
abbrev main_call0_v7 : Ref sig .tc := ⟨.hbm, 24, rfl⟩
abbrev main_call0_v8 : Ref sig .tc := ⟨.hbm, 25, rfl⟩
abbrev main_call0_v9 : Ref sig .tc := ⟨.hbm, 26, rfl⟩
abbrev main_call0_v10 : Ref sig .tc := ⟨.hbm, 27, rfl⟩
abbrev main_call0_v11 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_cst : Ref sig .tc := ⟨.hbm, 33, rfl⟩
abbrev main_v14 : Ref sig .tc := ⟨.hbm, 34, rfl⟩
abbrev main_v15 : Ref sig .tc := ⟨.hbm, 35, rfl⟩
abbrev main_cst_0 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_cst_1 : Ref sig .tc := ⟨.hbm, 40, rfl⟩
abbrev main_v19 : Ref sig .tc := ⟨.hbm, 41, rfl⟩
abbrev main_v20 : Ref sig .tc := ⟨.hbm, 42, rfl⟩
abbrev main_cst_2 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_cst_3 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_cst_4 : Ref sig .tc := ⟨.hbm, 57, rfl⟩
abbrev main_v33 : Ref sig .tc := ⟨.hbm, 58, rfl⟩
abbrev main_cst_5 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_cst_6 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩

abbrev nD : Nat := 1
abbrev τ : Topo := Topo.v7x

variable {F : FTy → Type} [FloatOps F]

class Facts₀ : Prop where
  bcast_S256_S1x256_1 : S256.BroadcastsInDim S1x256 (![1] : Fin 1 → Fin S1x256.rank)
  bcast_S1x256_S8192x256_0_1 : S1x256.BroadcastsInDim S8192x256 (![0, 1] : Fin 2 → Fin S8192x256.rank)
  shapeCasts_S8192x256_S8192x4x64 : S8192x256.ShapeCasts S8192x4x64
  bcast_S4_S1x4_1 : S4.BroadcastsInDim S1x4 (![1] : Fin 1 → Fin S1x4.rank)
  bcast_S1x4_S8192x4_0_1 : S1x4.BroadcastsInDim S8192x4 (![0, 1] : Fin 2 → Fin S8192x4.rank)
  bcast_S_S8192x4 : S_.BroadcastsInDim S8192x4 (![] : Fin 0 → Fin S8192x4.rank)
  shapeCasts_S8192x4_S8192x4x1 : S8192x4.ShapeCasts S8192x4x1
  reducesTo_S8192x4x64_S8192x4_d2 : S8192x4x64.ReducesTo [2] S8192x4
  h_S_ : 0 < S_.numel
  bcast_S8192x4_S8192x4x1_0_1 : S8192x4.BroadcastsInDim S8192x4x1 (![0, 1] : Fin 2 → Fin S8192x4x1.rank)
  bcast_S_S8192x4x1 : S_.BroadcastsInDim S8192x4x1 (![] : Fin 0 → Fin S8192x4x1.rank)
  reducesTo_S8192x128x64_S8192x128_d2 : S8192x128x64.ReducesTo [2] S8192x128
  bcast_S8192x128_S8192x128x1_0_1 : S8192x128.BroadcastsInDim S8192x128x1 (![0, 1] : Fin 2 → Fin S8192x128x1.rank)
  bcast_S_S8192x128x1 : S_.BroadcastsInDim S8192x128x1 (![] : Fin 0 → Fin S8192x128x1.rank)
  transposes_S8192x128x1_S8192x1x128_0_2_1 : S8192x128x1.Transposes [0, 2, 1] S8192x1x128
  bcast_S8192x4x1_S8192x4x128_0_1_2 : S8192x4x1.BroadcastsInDim S8192x4x128 (![0, 1, 2] : Fin 3 → Fin S8192x4x128.rank)
  bcast_S8192x1x128_S8192x4x128_0_1_2 : S8192x1x128.BroadcastsInDim S8192x4x128 (![0, 1, 2] : Fin 3 → Fin S8192x4x128.rank)
  bcast_S_S8192x4x128 : S_.BroadcastsInDim S8192x4x128 (![] : Fin 0 → Fin S8192x4x128.rank)
  reducesTo_S8192x4x128_S8192x4_d2 : S8192x4x128.ReducesTo [2] S8192x4
  dot_S8192x512_S512x256_S8192x256_1_0_0_1_n_n_wf : DotDims.WF S8192x512 S512x256 S8192x256 [1] [0] [0] [1] [] []
  dot_S8192x512_S512x4_S8192x4_1_0_0_1_n_n_wf : DotDims.WF S8192x512 S512x4 S8192x4 [1] [0] [0] [1] [] []
  dot_S8192x4x64_S8192x128x64_S8192x4x128_2_2_1_1_0_0_wf : DotDims.WF S8192x4x64 S8192x128x64 S8192x4x128 [2] [2] [1] [1] [0] [0]

variable [Facts₀]

def dot_S8192x512_S512x256_S8192x256_1_0_0_1_n_n : DotDims S8192x512 S512x256 S8192x256 where
  lhsContracting := [1]
  rhsContracting := [0]
  lhsNonContracting := [0]
  rhsNonContracting := [1]
  lhsBatch := []
  rhsBatch := []
  wf := dot_S8192x512_S512x256_S8192x256_1_0_0_1_n_n_wf
def dot_S8192x512_S512x4_S8192x4_1_0_0_1_n_n : DotDims S8192x512 S512x4 S8192x4 where
  lhsContracting := [1]
  rhsContracting := [0]
  lhsNonContracting := [0]
  rhsNonContracting := [1]
  lhsBatch := []
  rhsBatch := []
  wf := dot_S8192x512_S512x4_S8192x4_1_0_0_1_n_n_wf
def dot_S8192x4x64_S8192x128x64_S8192x4x128_2_2_1_1_0_0 : DotDims S8192x4x64 S8192x128x64 S8192x4x128 where
  lhsContracting := [2]
  rhsContracting := [2]
  lhsNonContracting := [1]
  rhsNonContracting := [1]
  lhsBatch := [0]
  rhsBatch := [0]
  wf := dot_S8192x4x64_S8192x128x64_S8192x4x128_2_2_1_1_0_0_wf

class Facts : Prop extends Facts₀ where

variable [Facts]
-- ==== Proof.Spec.lean ====
/-
  Content addressing of a memory by cosine similarity: what both programs compute, one batch row at a time.

  For one batch row with hidden vector h (512 entries) and memory slab v (128 rows of 64 entries):
    key column c (of 256)   key c  = tanh (∑ k, h k * Wk k c + bk c)
    strength of head a      β a    = softplus (∑ k, h k * Wb k a + bb a)
    for head a the key row u w = key (64 a + w), and against memory row j
      logit j = (∑ w, u w * v j w) / (sqrt ((∑ w, u w * u w + ε) * (∑ w, v j w * v j w + ε)) + ε) * β a
    and the output row of head a is the softmax of the 128 logits: exp (logit j - max) / ∑ j', exp (logit j' - max).
  Every operation is the exact one on the extended reals; ε is the f32 word nearest 1e-6 at its binary value, the
  same word in both programs. No batch row depends on another, so the same row function describes a block of 256
  rows and the whole array of 8192 rows; the flat layouts (128 a + j for the output columns, 64 j + w for the memory
  columns) are the kernel's lane-dense views of the same data.
-/
import Idealize.ShloMosaic.PureOps.Ideal
import Idealize.ShloMosaic.PureOps.Ideal.Laws
import Idealize.ShloMosaic.Lib.ValueIdx

noncomputable section

namespace Addressing

open Idealize.ShloMosaic Idealize.ShloMosaic.ValueIdx

/-- The stabiliser ε: the f32 word nearest 1e-6, at its exact binary value. -/
abbrev eps : EReal := Ideal.ofBits .f32 0x358637BD#32

/-- The zero word. -/
abbrev zero : EReal := Ideal.ofBits .f32 0x00000000#32

/-- The word of -∞, the maximum's starting value. -/
abbrev negInf : EReal := Ideal.ofBits .f32 0xFF800000#32

/-- softplus as `log (exp x + exp 0)` is computed: `max x 0 + log1p (exp (0 - |x - 0|))`, behind a guard `x - 0 ≠ x - 0`
    that never fires on the extended reals. -/
def softplus (x : EReal) : EReal :=
  Scalar.select (Ideal.cmp .one (x - zero) (x - zero)) (x + zero)
    (max x zero + Ideal.log1p (Ideal.exp (zero - max (x - zero) (-(x - zero)))))

variable {D C H W M : ℕ}

/-- Key column `c`: tanh of the hidden row against column `c` of the key weights, plus the bias. -/
def keyAt (h : Fin D → EReal) (Wk : Fin D → Fin C → EReal) (bk : Fin C → EReal) (c : Fin C) : EReal :=
  Ideal.tanh ((∑ k, h k * Wk k c) + bk c)

/-- Strength of head `a`: softplus of the hidden row against column `a` of the strength weights, plus the bias. -/
def betaAt (h : Fin D → EReal) (Wb : Fin D → Fin H → EReal) (bb : Fin H → EReal) (a : Fin H) : EReal :=
  softplus ((∑ k, h k * Wb k a) + bb a)

/-- The scaled cosine similarity of the key row `u` with memory row `j`. -/
def logit (u : Fin W → EReal) (v : Fin M → Fin W → EReal) (β : EReal) (j : Fin M) : EReal :=
  Ideal.div (∑ w, u w * v j w) (Ideal.sqrt (((∑ w, u w * u w) + eps) * ((∑ w, v j w * v j w) + eps)) + eps) * β

/-- The maximum of a row, from -∞. -/
def rowMax (x : Fin M → EReal) : EReal := max negInf ((Finset.univ : Finset (Fin M)).fold max ⊥ x)

/-- The softmax of a row at entry `j`. -/
def softmax (x : Fin M → EReal) (j : Fin M) : EReal :=
  Ideal.div (Ideal.exp (x j - rowMax x)) (∑ k, Ideal.exp (x k - rowMax x))

/-- The column of head `a`'s key entry `w` among the 256 key columns. -/
def keyCol (a : Fin 4) (w : Fin 64) : Fin 256 := ⟨64 * a.val + w.val, by have := a.isLt; have := w.isLt; omega⟩

/-- The column of memory row `j`'s entry `w` in the flat view of a slab. -/
def memCol (j : Fin 128) (w : Fin 64) : Fin 8192 := ⟨64 * j.val + w.val, by have := j.isLt; have := w.isLt; omega⟩

/-- One output row: head `a`, memory row `j`, from one hidden row, one memory slab and the parameters. -/
def outRow (h : Fin 512 → EReal) (v : Fin 128 → Fin 64 → EReal) (Wk : Fin 512 → Fin 256 → EReal) (bk : Fin 256 → EReal)
    (Wb : Fin 512 → Fin 4 → EReal) (bb : Fin 4 → EReal) (a : Fin 4) (j : Fin 128) : EReal :=
  softmax (logit (fun w => keyAt h Wk bk (keyCol a w)) v (betaAt h Wb bb a)) j

/-- The result array [8192, 4, 128] from the argument arrays. -/
def result (hid : (⟨2, ![8192, 512]⟩ : Shape).Idx → EReal) (mem : (⟨3, ![8192, 128, 64]⟩ : Shape).Idx → EReal)
    (Wk : (⟨2, ![512, 256]⟩ : Shape).Idx → EReal) (bk : (⟨1, ![256]⟩ : Shape).Idx → EReal)
    (Wb : (⟨2, ![512, 4]⟩ : Shape).Idx → EReal) (bb : (⟨1, ![4]⟩ : Shape).Idx → EReal) :
    (⟨3, ![8192, 4, 128]⟩ : Shape).Idx → EReal := fun i =>
  outRow (fun k => hid (ix2 (i 0) k)) (fun j w => mem (ix3 (i 0) j w)) (fun k c => Wk (ix2 k c)) (fun c => bk (ix1 c))
    (fun k a => Wb (ix2 k a)) (fun a => bb (ix1 a)) (i 1) (i 2)

/-- The head of a flat output column. -/
def headOf (q : Fin 512) : Fin 4 := ⟨q.val / 128, by have := q.isLt; omega⟩

/-- The memory row of a flat output column. -/
def slotOf (q : Fin 512) : Fin 128 := ⟨q.val % 128, Nat.mod_lt _ (by decide)⟩

/-- The same rows in the kernel's flat layouts, for any number of rows: the output [rows, 512] with column
    `128 a + j`, from the hidden rows [rows, 512] and the memory in its flat view [rows, 8192]. -/
def flat (rows : ℕ) (hid : (⟨2, ![rows, 512]⟩ : Shape).Idx → EReal) (memF : (⟨2, ![rows, 8192]⟩ : Shape).Idx → EReal)
    (Wk : (⟨2, ![512, 256]⟩ : Shape).Idx → EReal) (bk : (⟨1, ![256]⟩ : Shape).Idx → EReal)
    (Wb : (⟨2, ![512, 4]⟩ : Shape).Idx → EReal) (bb : (⟨1, ![4]⟩ : Shape).Idx → EReal) :
    (⟨2, ![rows, 512]⟩ : Shape).Idx → EReal := fun y =>
  outRow (fun k => hid (ix2 (y 0) k)) (fun j w => memF (ix2 (y 0) (memCol j w))) (fun k c => Wk (ix2 k c)) (fun c => bk (ix1 c))
    (fun k a => Wb (ix2 k a)) (fun a => bb (ix1 a)) (headOf (y 1)) (slotOf (y 1))

end Addressing

end
-- ==== Proof.LibLastAxisSum.lean ====
/-
  A sum along the last axis of an `[a, b, c]` vector, read at an entry.

  A kernel's `multi_reduction <add>` over axis 2 of an `[a, b, c]` vector, from the zero accumulator, is on the
  extended reals the plain sum: entry `(p, q)` of the `[a, b]` result is the sum over `k` of the operand at
  `(p, q, k)`.
-/
import Idealize.ShloMosaic.PureOps.Ideal.Laws
import Idealize.ShloMosaic.Lib.ValueIdx

namespace LastAxisSum

open Idealize.ShloMosaic Idealize.ShloMosaic.ValueIdx

variable {a b c : ℕ}

/-- Entry `(p, q)` of the result with the coordinate `k` of the summed axis put back is the entry `(p, q, k)`. -/
theorem lift_last (h : Shape.Reduces ⟨3, ![a, b, c]⟩ [2] ⟨2, ![a, b]⟩) (p : Fin a) (q : Fin b) (k : Fin c) :
    h.lift (ix2 p q) k = ix3 p q k := by
  funext d
  apply Fin.ext
  match d with
  | ⟨0, _⟩ => rfl
  | ⟨1, _⟩ => rfl
  | ⟨2, _⟩ => rfl

/-- The sum over the last axis, at entry `(p, q)`. -/
theorem lastSum_apply (v : FVec Ideal ⟨3, ![a, b, c]⟩ .f32) (h : Shape.Reduces ⟨3, ![a, b, c]⟩ [2] ⟨2, ![a, b]⟩)
    (hφ : FKind.Formats .f32) (hacc : (0x00000000#32 : BitVec 32) = FKind.add.neutral .f32 hφ) (p : Fin a) (q : Fin b) :
    multiReduction .add [2] ⟨2, ![a, b]⟩ v 0x00000000#32 h hφ hacc (ix2 p q) = ∑ k : Fin c, v (ix3 p q k) := by
  refine (Ideal.multiReduction_add_single v 0x00000000#32 h hφ hacc (ix2 p q)).trans ?_
  exact Finset.sum_congr rfl fun k _ => congrArg v (lift_last h p q k)

end LastAxisSum
-- ==== Proof.LibRowOps.lean ====
/-
  Row-wise reductions of an `[a, b]` vector and the keepdims column forms, read at an index.

  A kernel body that normalises each row (a softmax, a log-softmax, a layer norm) reduces its `[a, b]` block along
  axis 1 into `[a]`, recasts that to the column `[a, 1]` and broadcasts the column back over `[a, b]`. On the
  extended reals: the `maximumf` reduction at row `r` is the fold of `max` from `⊥` over the row's `b` entries
  (its accumulator pattern is `-∞`), the `add` reduction is the row's sum, the cast reads `(r, 0) ↦ r`, and the
  broadcast reads `(r, c) ↦ (r, 0)`. The host's one-axis `reduce` with a `maximum` body is the same fold from its
  initial value.
-/
import Idealize.ShloMosaic.PureOps.Ideal.Laws
import Idealize.ShloMosaic.Lib.ValueIdx
import Idealize.ShloMosaic.Lib.Pipeline.Value

namespace Gcn.Lib

open Idealize.ShloMosaic Idealize.ShloMosaic.ValueIdx

variable {a b : ℕ}

/-- The f32 pattern of `-∞` denotes `⊥`. -/
theorem ofBits_neg_inf_f32 : Ideal.ofBits .f32 0xFF800000#32 = ⊥ := by simp [Ideal.ofBits, Ideal.ieee]

/-- Row `r` with the column coordinate `k` put back is the entry `(r, k)`. -/
theorem lift_row (h : Shape.Reduces ⟨2, ![a, b]⟩ [1] ⟨1, ![a]⟩) (r : Fin a) (k : Fin b) :
    h.lift (ix1 r) k = ix2 r k := by
  funext d
  apply Fin.ext
  match d with
  | ⟨0, h0⟩ =>
    show h.liftVal (ix1 r) k.val ⟨0, h0⟩ = r.val
    unfold Shape.Reduces.liftVal
    split
    · next hc => exact absurd hc Nat.zero_ne_one
    · split
      · rfl
      · next hlt => exact absurd Nat.zero_lt_one hlt
  | ⟨1, h1⟩ =>
    show h.liftVal (ix1 r) k.val ⟨1, h1⟩ = k.val
    unfold Shape.Reduces.liftVal
    split
    · rfl
    · next hc => exact absurd rfl hc

/-- A kernel's `multi_reduction <maximumf>` along axis 1 from the `-∞` accumulator, at row `r`: the fold of `max`
    from `⊥` over the row. -/
theorem rowMax_apply (v : FVec Ideal ⟨2, ![a, b]⟩ .f32) (h : Shape.Reduces ⟨2, ![a, b]⟩ [1] ⟨1, ![a]⟩)
    (hφ : FKind.Formats .f32) (hacc : (0xFF800000#32 : BitVec 32) = FKind.maximumf.neutral .f32 hφ) (r : Fin a) :
    multiReduction .maximumf [1] ⟨1, ![a]⟩ v 0xFF800000#32 h hφ hacc (ix1 r)
      = (Finset.univ : Finset (Fin b)).fold max ⊥ (fun k => v (ix2 r k)) := by
  refine (Ideal.multiReduction_maximumf_single v 0xFF800000#32 h hφ hacc (ix1 r)).trans ?_
  show (Finset.univ : Finset (Fin b)).fold max (Ideal.ofBits .f32 0xFF800000#32) (v ∘ h.lift (ix1 r)) = _
  rw [ofBits_neg_inf_f32]
  exact congrArg (fun f => (Finset.univ : Finset (Fin b)).fold max ⊥ f) (funext fun k => congrArg v (lift_row h r k))

/-- A kernel's `multi_reduction <add>` along axis 1, at row `r`: the row's sum. -/
theorem rowSum_apply (v : FVec Ideal ⟨2, ![a, b]⟩ .f32) (h : Shape.Reduces ⟨2, ![a, b]⟩ [1] ⟨1, ![a]⟩)
    (hφ : FKind.Formats .f32) (hacc : (0x00000000#32 : BitVec 32) = FKind.add.neutral .f32 hφ) (r : Fin a) :
    multiReduction .add [1] ⟨1, ![a]⟩ v 0x00000000#32 h hφ hacc (ix1 r) = ∑ k : Fin b, v (ix2 r k) := by
  refine (Ideal.multiReduction_add_single v 0x00000000#32 h hφ hacc (ix1 r)).trans ?_
  exact Finset.sum_congr rfl fun k _ => congrArg v (lift_row h r k)

/-- The host's one-axis `reduce` with a `maximum` body along axis 1, at row `r`: the fold of `max` from the
    initial value over the row. -/
theorem hostRowMax_apply {u : Shape} (x : (⟨2, ![a, b]⟩ : Shape).Idx → EReal) (init : u.Idx → EReal)
    (h' : Shape.ReducesTo ⟨2, ![a, b]⟩ [1] ⟨1, ![a]⟩) (h : Shape.Reduces ⟨2, ![a, b]⟩ [1] ⟨1, ![a]⟩) (hu : 0 < u.numel)
    (r : Fin a) :
    Host.reduce (FloatOps.maximumf (F := Ideal) (φ := .f32)) x init h' hu (ix1 r)
      = (Finset.univ : Finset (Fin b)).fold max (init (Shape.Idx.first hu)) (fun k => x (ix2 r k)) := by
  refine (Host.reduce_eq_fold_single (FloatOps.maximumf (F := Ideal) (φ := .f32)) x init h' h hu (ix1 r)).trans ?_
  show (Finset.univ : Finset (Fin b)).fold max (init (Shape.Idx.first hu)) (x ∘ h.lift (ix1 r)) = _
  exact congrArg (fun f => (Finset.univ : Finset (Fin b)).fold max (init (Shape.Idx.first hu)) f)
    (funext fun k => congrArg x (lift_row h r k))

/-- An `[a]` vector cast to the column `[a, 1]` reads, at `(r, u)`, the operand at `r`. -/
theorem shapeCast_a_a1_apply {α : Type} (x : (⟨1, ![a]⟩ : Shape).Idx → α) (h : (⟨1, ![a]⟩ : Shape).ShapeCasts ⟨2, ![a, 1]⟩)
    (r : Fin a) (u : Fin 1) : shapeCast ⟨2, ![a, 1]⟩ x h (ix2 r u) = x (ix1 r) :=
  shapeCast_apply x h _ _ (by
    have hu : u.val = 0 := by omega
    rw [Shape.rowMajor_val_two, Shape.rowMajor_val_one]
    show r.val = r.val * 1 + u.val
    rw [hu, Nat.mul_one, Nat.add_zero])

/-- A column `[a, 1]` broadcast over `[a, b]` reads, at `(r, c)`, the column's entry of row `r`. -/
theorem broadcastTo_a1_ab_apply {α : Type} (v : (⟨2, ![a, 1]⟩ : Shape).Idx → α) (h : (⟨2, ![a, 1]⟩ : Shape).Broadcasts ⟨2, ![a, b]⟩)
    (r : Fin a) (c : Fin b) : broadcastTo ⟨2, ![a, b]⟩ v h (ix2 r c) = v (ix2 r (0 : Fin 1)) := by
  refine broadcastTo_apply v h (ix2 r c) (ix2 r (0 : Fin 1)) fun ax => ?_
  match ax with
  | ⟨0, _⟩ =>
    show r.val = if a = 1 then 0 else r.val
    split
    · have := r.isLt; omega
    · rfl
  | ⟨1, _⟩ => rfl

end Gcn.Lib
-- ==== Proof.LibTileOps.lean ====
/-
  The layout chains of a tile body, read at an entry.

  A body that works on an `[a, b]` tile against per-column parameters meets a handful of chains of layout
  operations again and again: a `[b]` vector recast to the row `[1, b]` and broadcast down the tile's rows; one row of a
  `[m, b]` block sliced out, flattened, recast and broadcast the same way; one `[1, a, b]` slab of an `[m, a, b]` stack
  loaded through its rectangle and recast to the matrix `[a, b]`; a row sum recast to a column and broadcast across the
  tile's columns. Each lemma reads one chain at the entry `(p, c)` as the operand at the evident index.
-/
import Idealize.ShloMosaic.PureOps.Ideal.Laws
import Idealize.ShloMosaic.Lib.ValueIdx
import Idealize.ShloMosaic.Lib.ValueLayout
import Idealize.ShloMosaic.Lib.Pipeline.Value
import proofs.«118651_j86260123174144_2_alg».proof.Proof.LibRowOps

namespace Hmu.Lib

open Idealize.ShloMosaic Idealize.ShloMosaic.ValueIdx

variable {a b m : ℕ} {α : Type}

/-- A `[b]` vector recast to the row `[1, b]` and broadcast over `[a, b]` reads, at `(p, c)`, the vector at `c`. -/
theorem rowVec_apply (v : (⟨1, ![b]⟩ : Shape).Idx → α) (h1 : (⟨1, ![b]⟩ : Shape).ShapeCasts ⟨2, ![1, b]⟩)
    (h2 : (⟨2, ![1, b]⟩ : Shape).Broadcasts ⟨2, ![a, b]⟩) (p : Fin a) (c : Fin b) :
    broadcastTo ⟨2, ![a, b]⟩ (shapeCast ⟨2, ![1, b]⟩ v h1) h2 (ix2 p c) = v (ix1 c) :=
  (broadcastTo_1b_ab_apply _ h2 p c).trans (shapeCast_a_1a_apply v h1 0 c)

/-- The same with a cast of the vector to its own shape first. -/
theorem rowVec_self_apply (v : (⟨1, ![b]⟩ : Shape).Idx → α) (h0 : (⟨1, ![b]⟩ : Shape).ShapeCasts ⟨1, ![b]⟩)
    (h1 : (⟨1, ![b]⟩ : Shape).ShapeCasts ⟨2, ![1, b]⟩)
    (h2 : (⟨2, ![1, b]⟩ : Shape).Broadcasts ⟨2, ![a, b]⟩) (p : Fin a) (c : Fin b) :
    broadcastTo ⟨2, ![a, b]⟩ (shapeCast ⟨2, ![1, b]⟩ (shapeCast ⟨1, ![b]⟩ v h0) h1) h2 (ix2 p c) = v (ix1 c) := by
  rw [shapeCast_self]; exact rowVec_apply v h1 h2 p c

/-- Row `k` of an `[m, b]` block, sliced out as `[1, b]` at the literal offset `o = k`, flattened to `[b]`, recast to `[1, b]` and
    broadcast over `[a, b]`, reads at `(p, c)` the block at `(k, c)`. -/
theorem blockRow_apply (v : (⟨2, ![m, b]⟩ : Shape).Idx → α) (o : ℕ) (k : Fin m) (hk : k.val = o)
    (hs : (⟨2, ![m, b]⟩ : Shape).Slices ![o, 0] ⟨2, ![1, b]⟩)
    (h0 : (⟨2, ![1, b]⟩ : Shape).ShapeCasts ⟨1, ![b]⟩) (h1 : (⟨1, ![b]⟩ : Shape).ShapeCasts ⟨2, ![1, b]⟩)
    (h2 : (⟨2, ![1, b]⟩ : Shape).Broadcasts ⟨2, ![a, b]⟩) (p : Fin a) (c : Fin b) :
    broadcastTo ⟨2, ![a, b]⟩ (shapeCast ⟨2, ![1, b]⟩ (shapeCast ⟨1, ![b]⟩ (extractStridedSlice ⟨2, ![1, b]⟩ ![o, 0] v hs) h0) h1) h2 (ix2 p c)
      = v (ix2 k c) :=
  (rowVec_apply _ h1 h2 p c).trans <| (shapeCast_1a_a_apply _ h0 c).trans <|
    slice2_axis0_apply o v hs (0 : Fin 1) c k (by simp [hk])

/-- A row sum of an `[a, b]` tile, recast to the column `[a, 1]` and broadcast over `[a, b]`, reads at `(p, c)` the sum of
    row `p`. -/
theorem rowSumCol_apply (v : FVec Ideal ⟨2, ![a, b]⟩ .f32) (h : Shape.Reduces ⟨2, ![a, b]⟩ [1] ⟨1, ![a]⟩)
    (hφ : FKind.Formats .f32) (hacc : (0x00000000#32 : BitVec 32) = FKind.add.neutral .f32 hφ)
    (h1 : (⟨1, ![a]⟩ : Shape).ShapeCasts ⟨2, ![a, 1]⟩) (h2 : (⟨2, ![a, 1]⟩ : Shape).Broadcasts ⟨2, ![a, b]⟩)
    (p : Fin a) (c : Fin b) :
    broadcastTo ⟨2, ![a, b]⟩ (shapeCast ⟨2, ![a, 1]⟩ (multiReduction .add [1] ⟨1, ![a]⟩ v 0x00000000#32 h hφ hacc) h1) h2 (ix2 p c)
      = ∑ k : Fin b, v (ix2 p k) :=
  (Gcn.Lib.broadcastTo_a1_ab_apply _ h2 p c).trans <| (Gcn.Lib.shapeCast_a_a1_apply _ h1 p 0).trans <|
    Gcn.Lib.rowSum_apply v h hφ hacc p

/-- Slab `k` of an `[m, a, b]` stack, loaded through the rectangle of extents `[1, a, b]` at the literal offsets `[o, 0, 0]`,
    `o = k`, reads at `(0, i, j)` the stack at `(k, i, j)`. -/
theorem ld_slab {Val : EltTy → Type} {e : EltTy} (x : (⟨3, ![m, a, b]⟩ : Shape).Idx → Val e) (o : ℕ) (k : Fin m) (hk : k.val = o)
    (inb : ∀ ax, (![o, 0, 0] : Fin 3 → ℕ) ax + (⟨3, ![1, a, b]⟩ : Shape).size ax ≤ (⟨3, ![m, a, b]⟩ : Shape).size ax)
    (i : Fin a) (j : Fin b) :
    View.ld (Val := Val) x (Rect.unit (s := ⟨3, ![m, a, b]⟩) ![o, 0, 0] (⟨3, ![1, a, b]⟩ : Shape).size inb) (ix3 (0 : Fin 1) i j)
      = x (ix3 k i j) := by
  show x ((Rect.unit (s := ⟨3, ![m, a, b]⟩) ![o, 0, 0] (⟨3, ![1, a, b]⟩ : Shape).size inb).idx (ix3 (0 : Fin 1) i j)) = _
  refine congrArg x (funext fun ax => Fin.ext ?_)
  match ax with
  | ⟨0, _⟩ => show o + 1 * 0 = k.val; omega
  | ⟨1, _⟩ => show 0 + 1 * i.val = i.val; omega
  | ⟨2, _⟩ => show 0 + 1 * j.val = j.val; omega

end Hmu.Lib
-- ==== Proof.HeadPayload.lean ====
/-
  One head's output tile read at an entry.

  Inside the loop over heads the kernel holds the memory tile as a [256, 128, 64] vector `mem`, loads the head's
  key rows `key` [256, 64] and strength column `beta` [256, 1] from its scratch buffers, and stores a [256, 128]
  tile. This module reads that tile at entry (p, j): the softmax over the 128 memory rows of batch row p of the
  scaled cosine similarity of key row p with memory row (p, j). The tile is cut into the stages the mathematics names —
  the squared norms of the memory rows, the dot products, the squared norm of the key row, the logits, the softmax —
  each read at an entry by the sums it is; the printed payload is their composition, by unfolding.
-/
import proofs.«118651_j86260123174144_2_alg».proof.Proof.Gen.KernelIdeal.Skeleton
import proofs.«118651_j86260123174144_2_alg».proof.Proof.Spec
import proofs.«118651_j86260123174144_2_alg».proof.Proof.LibLastAxisSum
import proofs.«118651_j86260123174144_2_alg».proof.Proof.LibRowOps
import proofs.«118651_j86260123174144_2_alg».proof.Proof.LibTileOps
import Idealize.ShloMosaic.Lib.Pipeline.Value
import Idealize.ShloMosaic.Lib.ValueIdx

noncomputable section

namespace Cert.KernelIdeal.HeadPayload

open Cert.KernelIdeal Cert.KernelIdeal.Gen Idealize.ShloMosaic Idealize.ShloMosaic.ValueIdx Addressing

/-- A [a, c] matrix given a unit middle axis and repeated over b reads, at (p, j, w), the matrix at (p, w). -/
theorem repeatRows_apply {α : Type} {a b c : ℕ} (x : (⟨2, ![a, c]⟩ : Shape).Idx → α)
    (h1 : (⟨2, ![a, c]⟩ : Shape).ShapeCasts ⟨3, ![a, 1, c]⟩) (h2 : (⟨3, ![a, 1, c]⟩ : Shape).Broadcasts ⟨3, ![a, b, c]⟩)
    (p : Fin a) (j : Fin b) (w : Fin c) :
    broadcastTo ⟨3, ![a, b, c]⟩ (shapeCast ⟨3, ![a, 1, c]⟩ x h1) h2 (ix3 p j w) = x (ix2 p w) := by
  refine (broadcastTo_apply _ h2 (ix3 p j w) (ix3 p (0 : Fin 1) w) fun ax => ?_).trans ?_
  · match ax with
    | ⟨0, _⟩ =>
      show p.val = if a = 1 then 0 else p.val
      split
      · have := p.isLt; omega
      · rfl
    | ⟨1, _⟩ =>
      show (0 : ℕ) = if (1 : ℕ) = 1 then 0 else j.val
      rw [if_pos rfl]
    | ⟨2, _⟩ =>
      show w.val = if c = 1 then 0 else w.val
      split
      · have := w.isLt; omega
      · rfl
  · refine shapeCast_apply x h1 _ _ ?_
    rw [Shape.rowMajor_val_two, Shape.rowMajor_val_three]
    show p.val * c + w.val = (p.val * 1 + 0) * c + w.val
    rw [Nat.mul_one, Nat.add_zero]

/-! ## The stages -/

/-- The squared norm of every memory row, plus ε: [256, 128]. -/
def memNorm (mem : FVec Ideal S256x128x64 .f32) : FVec Ideal S256x128 .f32 :=
  addf (multiReduction .add [2] S256x128 (mulf mem mem) 0x00000000#32 reduces_S256x128x64_S256x128 (.inl rfl) rfl)
    (broadcast S256x128 (Scalar.ofBits .f32 0x358637BD#32))

/-- The dot product of key row p with every memory row of batch row p: [256, 128]. -/
def dots (mem : FVec Ideal S256x128x64 .f32) (key : Vec Ideal S256x64 .f32) : FVec Ideal S256x128 .f32 :=
  multiReduction .add [2] S256x128
    (mulf (broadcastTo S256x128x64 (shapeCast S256x1x64 key shapeCasts_S256x64_S256x1x64) broadcasts_S256x1x64_S256x128x64) mem)
    0x00000000#32 reduces_S256x128x64_S256x128 (.inl rfl) rfl

/-- The squared norm of every key row, plus ε, as a column: [256, 1]. -/
def keyNorm (key : Vec Ideal S256x64 .f32) : FVec Ideal S256x1 .f32 :=
  addf (shapeCast S256x1 (multiReduction .add [1] S256 (mulf key key) 0x00000000#32 reduces_S256x64_S256 (.inl rfl) rfl) shapeCasts_S256_S256x1)
    (broadcast S256x1 (Scalar.ofBits .f32 0x358637BD#32))

/-- The scaled cosine similarities: [256, 128]. -/
def logits (mem : FVec Ideal S256x128x64 .f32) (key : Vec Ideal S256x64 .f32) (beta : Vec Ideal S256x1 .f32) : FVec Ideal S256x128 .f32 :=
  mulf (divf (dots mem key)
      (addf (sqrt (mulf (broadcastTo S256x128 (keyNorm key) broadcasts_S256x1_S256x128) (memNorm mem)))
        (broadcast S256x128 (Scalar.ofBits .f32 0x358637BD#32))))
    (broadcastTo S256x128 beta broadcasts_S256x1_S256x128)

/-- Each row's maximum, from -∞, repeated along the row: [256, 128]. -/
def rowMaxTile (x : FVec Ideal S256x128 .f32) : FVec Ideal S256x128 .f32 :=
  broadcastTo S256x128
    (shapeCast S256x1
      (maximumf (broadcast S256 (Scalar.ofBits .f32 0xFF800000#32))
        (multiReduction .maximumf [1] S256 x 0xFF800000#32 reduces_S256x128_S256 (.inl rfl) rfl))
      shapeCasts_S256_S256x1)
    broadcasts_S256x1_S256x128

/-- The softmax of every row: [256, 128]. -/
def softmaxTile (x : FVec Ideal S256x128 .f32) : FVec Ideal S256x128 .f32 :=
  divf (exp (subf x (rowMaxTile x)))
    (broadcastTo S256x128
      (shapeCast S256x1 (multiReduction .add [1] S256 (exp (subf x (rowMaxTile x))) 0x00000000#32 reduces_S256x128_S256 (.inl rfl) rfl)
        shapeCasts_S256_S256x1)
      broadcasts_S256x1_S256x128)

/-- The printed payload is the softmax of the logits (the memory tile's squares passed in as they are computed). -/
theorem pay1_eq (mem : FVec Ideal S256x128x64 .f32) (key : Vec Ideal S256x64 .f32) (beta : Vec Ideal S256x1 .f32) :
    k0_pay1 (F := Ideal) mem (mulf mem mem) key beta = softmaxTile (logits mem key beta) := rfl

/-! ## The stages at an entry -/

theorem memNorm_apply (mem : FVec Ideal S256x128x64 .f32) (p : Fin 256) (j : Fin 128) :
    memNorm mem (ix2 p j) = (∑ w : Fin 64, mem (ix3 p j w) * mem (ix3 p j w)) + eps := by
  show multiReduction (F := Ideal) .add [2] S256x128 (mulf mem mem) 0x00000000#32 reduces_S256x128x64_S256x128 (.inl rfl) rfl (ix2 p j) + eps = _
  exact congrArg (· + eps) (LastAxisSum.lastSum_apply (mulf mem mem) reduces_S256x128x64_S256x128 (.inl rfl) rfl p j)

theorem dots_apply (mem : FVec Ideal S256x128x64 .f32) (key : Vec Ideal S256x64 .f32) (p : Fin 256) (j : Fin 128) :
    dots mem key (ix2 p j) = ∑ w : Fin 64, key (ix2 p w) * mem (ix3 p j w) := by
  unfold dots
  refine (LastAxisSum.lastSum_apply _ reduces_S256x128x64_S256x128 (.inl rfl) rfl p j).trans ?_
  refine Finset.sum_congr rfl fun w _ => ?_
  show broadcastTo S256x128x64 (shapeCast S256x1x64 key shapeCasts_S256x64_S256x1x64) broadcasts_S256x1x64_S256x128x64 (ix3 p j w)
      * mem (ix3 p j w) = _
  exact congrArg (· * mem (ix3 p j w)) (repeatRows_apply key shapeCasts_S256x64_S256x1x64 broadcasts_S256x1x64_S256x128x64 p j w)

theorem keyNorm_apply (key : Vec Ideal S256x64 .f32) (p : Fin 256) (u : Fin 1) :
    keyNorm key (ix2 p u) = (∑ w : Fin 64, key (ix2 p w) * key (ix2 p w)) + eps := by
  show shapeCast S256x1 (multiReduction (F := Ideal) .add [1] S256 (mulf key key) 0x00000000#32 reduces_S256x64_S256 (.inl rfl) rfl) shapeCasts_S256_S256x1 (ix2 p u) + eps = _
  refine congrArg (· + eps) ?_
  refine (Gcn.Lib.shapeCast_a_a1_apply _ shapeCasts_S256_S256x1 p u).trans ?_
  exact Gcn.Lib.rowSum_apply (mulf key key) reduces_S256x64_S256 (.inl rfl) rfl p

theorem logits_apply (mem : FVec Ideal S256x128x64 .f32) (key : Vec Ideal S256x64 .f32) (beta : Vec Ideal S256x1 .f32)
    (p : Fin 256) (j : Fin 128) :
    logits mem key beta (ix2 p j)
      = logit (fun w => key (ix2 p w)) (fun jj w => mem (ix3 p jj w)) (beta (ix2 p (0 : Fin 1))) j := by
  show Ideal.div (dots mem key (ix2 p j))
        (Ideal.sqrt (broadcastTo S256x128 (keyNorm key) broadcasts_S256x1_S256x128 (ix2 p j) * memNorm mem (ix2 p j)) + eps)
      * broadcastTo S256x128 beta broadcasts_S256x1_S256x128 (ix2 p j) = _
  rw [Gcn.Lib.broadcastTo_a1_ab_apply, Gcn.Lib.broadcastTo_a1_ab_apply, dots_apply, keyNorm_apply, memNorm_apply]
  rfl

theorem rowMaxTile_apply (x : FVec Ideal S256x128 .f32) (p : Fin 256) (j : Fin 128) :
    rowMaxTile x (ix2 p j) = rowMax (fun k => x (ix2 p k)) := by
  unfold rowMaxTile
  rw [Gcn.Lib.broadcastTo_a1_ab_apply, Gcn.Lib.shapeCast_a_a1_apply]
  show max negInf (multiReduction (F := Ideal) .maximumf [1] S256 x 0xFF800000#32 reduces_S256x128_S256 (.inl rfl) rfl (ix1 p)) = _
  exact congrArg (max negInf) (Gcn.Lib.rowMax_apply x reduces_S256x128_S256 (.inl rfl) rfl p)

theorem softmaxTile_apply (x : FVec Ideal S256x128 .f32) (p : Fin 256) (j : Fin 128) :
    softmaxTile x (ix2 p j) = softmax (fun k => x (ix2 p k)) j := by
  show Ideal.div (Ideal.exp (x (ix2 p j) - rowMaxTile x (ix2 p j)))
      (broadcastTo S256x128
        (shapeCast S256x1 (multiReduction (F := Ideal) .add [1] S256 (exp (subf x (rowMaxTile x))) 0x00000000#32 reduces_S256x128_S256 (.inl rfl) rfl)
          shapeCasts_S256_S256x1)
        broadcasts_S256x1_S256x128 (ix2 p j)) = _
  refine (congrArg (Ideal.div _) (Hmu.Lib.rowSumCol_apply (exp (subf x (rowMaxTile x))) reduces_S256x128_S256 (.inl rfl) rfl
    shapeCasts_S256_S256x1 broadcasts_S256x1_S256x128 p j)).trans ?_
  rw [rowMaxTile_apply]
  unfold softmax
  refine congrArg _ (Finset.sum_congr rfl fun k _ => ?_)
  show Ideal.exp (x (ix2 p k) - rowMaxTile x (ix2 p k)) = _
  rw [rowMaxTile_apply]

/-- One head's tile at entry (p, j): the softmax over the memory rows of batch row p of the scaled cosine
    similarities of key row p. -/
theorem pay1_apply (mem : FVec Ideal S256x128x64 .f32) (key : Vec Ideal S256x64 .f32) (beta : Vec Ideal S256x1 .f32)
    (p : Fin 256) (j : Fin 128) :
    k0_pay1 (F := Ideal) mem (mulf mem mem) key beta (ix2 p j)
      = softmax (logit (fun w => key (ix2 p w)) (fun jj w => mem (ix3 p jj w)) (beta (ix2 p (0 : Fin 1)))) j := by
  rw [pay1_eq, softmaxTile_apply]
  exact congrArg (fun f => softmax f j) (funext fun k => logits_apply mem key beta p k)

end Cert.KernelIdeal.HeadPayload

end
-- ==== Proof.LibPlainDot.lean ====
/-
  A plain matrix product read at an entry.

  Both programs multiply matrices with the dimension numbers "contract the left operand's columns with the
  right operand's rows, no batch axis" (`DotDims.plain M K N`). On the extended reals the kernel's matrix unit
  accumulating into zero and the host's `dot_general` are the same contraction; this module reads either at the
  entry `(p, q)` as the textbook sum `∑ k, lhs (p, k) * rhs (k, q)` over the `K` contracted coordinates, for any
  extents. The contraction index of the library is a one-coordinate index; the bijection with `Fin K` moves the sum.
-/
import Idealize.ShloMosaic.PureOps.Ideal.Laws
import Idealize.ShloMosaic.Lib.ValueIdx

namespace Gcn.Lib

open Idealize.ShloMosaic Idealize.ShloMosaic.ValueIdx

variable {M K N : ℕ}

/-- The left operand's index at output entry `(p, q)` and contracted coordinate `k` is `(p, k)`. -/
theorem plain_lhsIdx (p : Fin M) (q : Fin N) (k : Fin K) :
    (DotDims.plain M K N).lhsIdx (ix2 p q) ((contrEquiv1 (DotDims.plain M K N) K rfl rfl).symm k) = ix2 p k := by
  have hk := contrEquiv1_symm_val (DotDims.plain M K N) K rfl rfl k
  funext a
  apply Fin.ext
  match a with
  | ⟨0, _⟩ => rfl
  | ⟨1, _⟩ => exact ((DotDims.plain M K N).lhsIdx_val_of_single (cl := 1) rfl _ _).trans hk

/-- The right operand's index at output entry `(p, q)` and contracted coordinate `k` is `(k, q)`. -/
theorem plain_rhsIdx (p : Fin M) (q : Fin N) (k : Fin K) :
    (DotDims.plain M K N).rhsIdx (ix2 p q) ((contrEquiv1 (DotDims.plain M K N) K rfl rfl).symm k) = ix2 k q := by
  have hk := contrEquiv1_symm_val (DotDims.plain M K N) K rfl rfl k
  funext a
  apply Fin.ext
  match a with
  | ⟨0, _⟩ => exact ((DotDims.plain M K N).rhsIdx_val_of_single (cr := 0) rfl _ _).trans hk
  | ⟨1, _⟩ => rfl

/-- The contraction of a plain product at entry `(p, q)` is the sum over the `K` contracted coordinates. -/
theorem plain_contraction (lhs : (⟨2, ![M, K]⟩ : Shape).Idx → EReal) (rhs : (⟨2, ![K, N]⟩ : Shape).Idx → EReal)
    (p : Fin M) (q : Fin N) :
    ∑ k : (DotDims.plain M K N).contr.Idx,
        lhs ((DotDims.plain M K N).lhsIdx (ix2 p q) k) * rhs ((DotDims.plain M K N).rhsIdx (ix2 p q) k)
      = ∑ k : Fin K, lhs (ix2 p k) * rhs (ix2 k q) := by
  rw [← Equiv.sum_comp (contrEquiv1 (DotDims.plain M K N) K rfl rfl).symm]
  refine Finset.sum_congr rfl fun k _ => ?_
  rw [plain_lhsIdx, plain_rhsIdx]

/-- The kernel's matrix unit accumulating into the zero vector, read at entry `(p, q)`. -/
theorem plain_matmul_zero_apply {φ₁ φ₂ : FTy} (lhs : FVec Ideal ⟨2, ![M, K]⟩ φ₁) (rhs : FVec Ideal ⟨2, ![K, N]⟩ φ₂)
    (prec : Option ContractPrecision) (p : Fin M) (q : Fin N) :
    FloatOps.matmul (DotDims.plain M K N) prec lhs rhs (constant ⟨2, ![M, N]⟩ .f32 0x00000000#32) (ix2 p q)
      = ∑ k : Fin K, lhs (ix2 p k) * rhs (ix2 k q) :=
  (Ideal.matmul_constant_zero_apply (DotDims.plain M K N) prec lhs rhs (ix2 p q)).trans (plain_contraction lhs rhs p q)

/-- The host's `dot_general`, read at entry `(p, q)`: the same sum. -/
theorem plain_dotGeneral_apply {φ₁ φ₂ : FTy} (lhs : FVec Ideal ⟨2, ![M, K]⟩ φ₁) (rhs : FVec Ideal ⟨2, ![K, N]⟩ φ₂)
    (prec : Option ContractPrecision) (sched : HostSchedule) (p : Fin M) (q : Fin N) :
    FloatOps.dotGeneral (DotDims.plain M K N) prec sched lhs rhs (ix2 p q)
      = ∑ k : Fin K, lhs (ix2 p k) * rhs (ix2 k q) :=
  (Ideal.dotGeneral_apply (DotDims.plain M K N) prec sched lhs rhs (ix2 p q)).trans (plain_contraction lhs rhs p q)

end Gcn.Lib
-- ==== Proof.LibDotRecord.lean ====
/-
  A printed matrix-product record read as the plain product, and a row vector broadcast down the rows.

  A matrix product of an [M, K] by a [K, N] operand that contracts the left operand's columns with the right
  operand's rows and has no batch axis is determined by its six lists of axes; the record's last field is a proof.
  So any record with those lists IS the plain record, and every lemma about the plain product reads it: at entry
  (p, q) the product accumulated into zero is the sum over k of lhs (p, k) * rhs (k, q).
  A [1, b] row broadcast over [a, b] reads, at (r, c), the row's entry c.
-/
import proofs.«118651_j86260123174144_2_alg».proof.Proof.LibPlainDot
import Idealize.ShloMosaic.Lib.Pipeline.Value

namespace DotRecord

open Idealize.ShloMosaic Idealize.ShloMosaic.ValueIdx

variable {M K N : ℕ}

/-- A record whose six axis lists are the plain product's is the plain product's record. -/
theorem eq_plain (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = []) :
    d = DotDims.plain M K N := by
  obtain ⟨lc, rc, ln, rn, lb, rb, wf⟩ := d
  simp only at h1 h2 h3 h4 h5 h6
  subst h1 h2 h3 h4 h5 h6
  rfl

/-- The matrix unit accumulating into the zero vector, under any record with the plain lists, at entry (p, q). -/
theorem matmul_zero_apply {φ₁ φ₂ : FTy} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (lhs : FVec Ideal ⟨2, ![M, K]⟩ φ₁) (rhs : FVec Ideal ⟨2, ![K, N]⟩ φ₂)
    (prec : Option ContractPrecision) (p : Fin M) (q : Fin N) :
    FloatOps.matmul d prec lhs rhs (constant ⟨2, ![M, N]⟩ .f32 0x00000000#32) (ix2 p q)
      = ∑ k : Fin K, lhs (ix2 p k) * rhs (ix2 k q) := by
  rw [eq_plain d h1 h2 h3 h4 h5 h6]
  exact Gcn.Lib.plain_matmul_zero_apply lhs rhs prec p q

/-- A row [1, b] broadcast over [a, b] reads, at (r, c), the row's entry c. -/
theorem broadcastTo_1b_ab_apply {α : Type} {a b : ℕ} (v : (⟨2, ![1, b]⟩ : Shape).Idx → α)
    (h : (⟨2, ![1, b]⟩ : Shape).Broadcasts ⟨2, ![a, b]⟩) (r : Fin a) (c : Fin b) :
    broadcastTo ⟨2, ![a, b]⟩ v h (ix2 r c) = v (ix2 (0 : Fin 1) c) := by
  refine broadcastTo_apply v h (ix2 r c) (ix2 (0 : Fin 1) c) fun ax => ?_
  match ax with
  | ⟨0, _⟩ =>
    show (0 : ℕ) = if (1 : ℕ) = 1 then 0 else r.val
    rw [if_pos rfl]
  | ⟨1, _⟩ =>
    show c.val = if b = 1 then 0 else c.val
    split
    · have := c.isLt; omega
    · rfl

end DotRecord
-- ==== Proof.Projections.lean ====
/-
  What the kernel prepares before its loop over heads, read at an entry.

  From a block of 256 batch rows the kernel computes once: the key tile tanh (hidden · Wk + bk), [256, 256], kept in
  a scratch buffer; the strength tile softplus (hidden · Wβ + bβ), [256, 4], kept in a second one; and the memory
  block, fetched lane-dense as [256, 8192], recast to [256, 128, 64]. At an entry these are: key column c of row p;
  strength of head a of row p; and the memory block at (p, 64 j + w). The two matrix products accumulate into zero,
  so each entry is the plain sum over the 512 hidden coordinates.
-/
import proofs.«118651_j86260123174144_2_alg».proof.Proof.Gen.KernelIdeal.Skeleton
import proofs.«118651_j86260123174144_2_alg».proof.Proof.Spec
import proofs.«118651_j86260123174144_2_alg».proof.Proof.LibDotRecord
import proofs.«118651_j86260123174144_2_alg».proof.Proof.LibTileOps
import Idealize.ShloMosaic.Lib.Pipeline.Value
import Idealize.ShloMosaic.Lib.ValueIdx

noncomputable section

namespace Cert.KernelIdeal.Projections

open Cert.KernelIdeal Cert.KernelIdeal.Gen Idealize.ShloMosaic Idealize.ShloMosaic.ValueIdx Addressing

/-- The hidden block times a weight matrix, plus the bias row repeated down the rows, at entry (p, c). -/
theorem affine_apply {N : ℕ} (d : DotDims ⟨2, ![256, 512]⟩ ⟨2, ![512, N]⟩ ⟨2, ![256, N]⟩)
    (h1 : d.lhsContracting = [1]) (h2 : d.rhsContracting = [0]) (h3 : d.lhsNonContracting = [0])
    (h4 : d.rhsNonContracting = [1]) (h5 : d.lhsBatch = []) (h6 : d.rhsBatch = [])
    (x : FVec Ideal ⟨2, ![256, 512]⟩ .f32) (W : FVec Ideal ⟨2, ![512, N]⟩ .f32) (b : FVec Ideal ⟨1, ![N]⟩ .f32)
    (hc : (⟨1, ![N]⟩ : Shape).ShapeCasts ⟨2, ![1, N]⟩) (hb : (⟨2, ![1, N]⟩ : Shape).Broadcasts ⟨2, ![256, N]⟩)
    (p : Fin 256) (c : Fin N) :
    FloatOps.matmul d none x W (constant ⟨2, ![256, N]⟩ .f32 0x00000000#32) (ix2 p c)
        + broadcastTo ⟨2, ![256, N]⟩ (shapeCast ⟨2, ![1, N]⟩ b hc) hb (ix2 p c)
      = (∑ k : Fin 512, x (ix2 p k) * W (ix2 k c)) + b (ix1 c) := by
  rw [DotRecord.matmul_zero_apply d h1 h2 h3 h4 h5 h6, Hmu.Lib.rowVec_apply]

/-- The key tile at (p, c). -/
theorem pay2_apply (x0 : Vec Ideal S256x512 .f32) (x2 : Vec Ideal S512x256 .f32) (x3 : Vec Ideal S256 .f32)
    (p : Fin 256) (c : Fin 256) :
    k0_pay2 (F := Ideal) x0 x2 x3 (ix2 p c)
      = keyAt (fun k => x0 (ix2 p k)) (fun k c => x2 (ix2 k c)) (fun c => x3 (ix1 c)) c := by
  unfold k0_pay2
  show shapeCast S256x256 _ shapeCasts_S256x256_S256x256 (ix2 p c) = _
  rw [shapeCast_self]
  show Ideal.tanh (FloatOps.matmul (F := Ideal) dot_S256x512_S512x256_S256x256_1_0_0_1_n_n none x0 x2 (constant S256x256 .f32 0x00000000#32) (ix2 p c)
      + broadcastTo S256x256 (shapeCast S1x256 x3 shapeCasts_S256_S1x256) broadcasts_S1x256_S256x256 (ix2 p c)) = _
  rw [affine_apply _ rfl rfl rfl rfl rfl rfl]
  rfl

/-- The strength tile at (p, a). -/
theorem pay3_apply (x0 : Vec Ideal S256x512 .f32) (x4 : Vec Ideal S512x4 .f32) (x5 : Vec Ideal S4 .f32)
    (p : Fin 256) (a : Fin 4) :
    k0_pay3 (F := Ideal) x0 x4 x5 (ix2 p a)
      = betaAt (fun k => x0 (ix2 p k)) (fun k a => x4 (ix2 k a)) (fun a => x5 (ix1 a)) a := by
  unfold k0_pay3
  show shapeCast S256x4 _ shapeCasts_S256x4_S256x4 (ix2 p a) = _
  rw [shapeCast_self]
  show softplus (FloatOps.matmul (F := Ideal) dot_S256x512_S512x4_S256x4_1_0_0_1_n_n none x0 x4 (constant S256x4 .f32 0x00000000#32) (ix2 p a)
      + broadcastTo S256x4 (shapeCast S1x4 x5 shapeCasts_S4_S1x4) broadcasts_S1x4_S256x4 (ix2 p a)) = _
  rw [affine_apply _ rfl rfl rfl rfl rfl rfl]
  rfl

/-- The memory tile at (p, j, w) is the flat block at (p, 64 j + w). -/
theorem pay4_apply (x1 : Vec Ideal S256x8192 .f32) (p : Fin 256) (j : Fin 128) (w : Fin 64) :
    k0_pay4 (F := Ideal) x1 (ix3 p j w) = x1 (ix2 p (memCol j w)) := by
  show shapeCast S256x128x64 (shapeCast S256x8192 x1 shapeCasts_S256x8192_S256x8192) shapeCasts_S256x8192_S256x128x64 (ix3 p j w) = _
  rw [shapeCast_self]
  refine shapeCast_apply x1 _ _ _ ?_
  rw [Shape.rowMajor_val_two, Shape.rowMajor_val_three]
  show p.val * 8192 + (64 * j.val + w.val) = (p.val * 128 + j.val) * 64 + w.val
  omega

/-- The memory tile's squares are the tile times itself. -/
theorem pay5_eq (x1 : Vec Ideal S256x8192 .f32) : k0_pay5 (F := Ideal) x1 = mulf (k0_pay4 x1) (k0_pay4 x1) := rfl

end Cert.KernelIdeal.Projections

end
-- ==== Proof.BlockValue.lean ====
/-
  What one grid point leaves in the output's staging buffer: a block of the flat result.

  At a grid point the kernel fills the [256, 512] output block by four stores, one per head: head a's [256, 128] tile
  goes to columns 128 a … 128 a + 127. Each tile is computed from the memory tile and from slices of the two scratch
  buffers the body filled before the loop: columns 64 a … 64 a + 63 of the key tile and column a of the strength
  tile. So every stored tile is the restriction, to its rectangle, of ONE function of the block index — row p, column
  128 a + j holds the softmax entry j of head a of batch row p — and since the four rectangles cover the block, the
  block the run leaves is that function. The four stores are made by a counted loop; the list of pieces is built
  trip by trip, and the statement "every piece restricts the block function" passes through the recursion.
-/
import proofs.«118651_j86260123174144_2_alg».proof.Proof.Gen.KernelIdeal.Frame
import proofs.«118651_j86260123174144_2_alg».proof.Proof.HeadPayload
import proofs.«118651_j86260123174144_2_alg».proof.Proof.Projections
import Idealize.ShloMosaic.Lib.Pipeline.Value
import Idealize.ShloMosaic.Lib.ValueIdx

set_option maxRecDepth 16384

noncomputable section

namespace Cert.KernelIdeal.BlockValue

open Cert.KernelIdeal Cert.KernelIdeal.Gen Idealize.ShloMosaic Idealize.ShloMosaic.TcCoe Idealize.ShloMosaic.Tactic
open Idealize.ShloMosaic.ValueIdx Idealize.SL Idealize.SL.Sem Addressing

/-- The two-coordinate zero offsets, however spelt, are zero on every axis. -/
theorem zeros2 {S : Shape} (h : S.rank = 2) (off : Fin S.rank → ℕ) (h0 : ∀ a, off a = 0) : off = fun _ => 0 := funext h0

/-- A buffer filled by ONE store through its whole-shape rectangle reads back the stored value. -/
theorem read_whole_store {sig : RefSig} {κ : Kind} {sp : Space} {S : Shape} {e : EltTy} {Val : EltTy → Type} [∀ e, Nonempty (Val e)]
    (v : View sig κ sp S e) (f : v.ty.Contents Val) {off : Fin S.rank → ℕ} (hz : off = fun _ => 0)
    (inb : ∀ a, off a + S.size a ≤ S.size a) (w : S.Idx → Val e) :
    v.read Val (v.writes Val f [(⟨Rect.unit off S.size inb, w⟩ : View.Piece Val S e)]) = w := by
  rw [View.read_writes_eq_canon v f _ (fun y => ⟨_, List.mem_singleton_self _, View.mem_set_unit_zero hz inb y⟩),
    View.canon_unit_zero hz]

/-- A load of a whole staging buffer at its contents reads the contents. -/
theorem readAt_whole {sig : RefSig} {κ : Kind} {sp : Space} {S : Shape} {e : EltTy} {Val : EltTy → Type}
    (m : Memref sig κ sp S e) (hm : m.IsWhole) {off : Fin S.rank → ℕ} (hz : off = fun _ => 0)
    (inb : ∀ a, off a + S.size a ≤ S.size a) (X : S.Idx → Val e) :
    View.readAt Val m.view (Rect.unit off S.size inb).toLoadRect (hm.unread X) = X := by
  rw [View.readAt_eq_ld, hm.read_unread, View.ld_unit_zero hz]

theorem hz2 : (![0, 0] : Fin 2 → ℕ) = fun _ => 0 := by funext a; fin_cases a <;> rfl
theorem hz1 : (![0] : Fin 1 → ℕ) = fun _ => 0 := by funext a; fin_cases a; rfl

/-! ## The loop's offsets: trip k reads key columns from 64 k, strength column k, and writes output columns from 128 k -/

theorem off1_0 (k : Fin k0_t1_loop.trips) : k0_off1 k 0 = 0 := by rw [k0_off1_eq]; rfl
theorem off1_1 (k : Fin k0_t1_loop.trips) : k0_off1 k 1 = 64 * k.val := by rw [k0_off1_eq]; rfl
theorem off2_0 (k : Fin k0_t1_loop.trips) : k0_off2 k 0 = 0 := by rw [k0_off2_eq]; rfl
theorem off2_1 (k : Fin k0_t1_loop.trips) : k0_off2 k 1 = k.val := by rw [k0_off2_eq]; rfl
theorem off3_0 (k : Fin k0_t1_loop.trips) : k0_off3 k 0 = 0 := by rw [k0_off3_eq]; rfl
theorem off3_1 (k : Fin k0_t1_loop.trips) : k0_off3 k 1 = 128 * k.val := by rw [k0_off3_eq]; rfl

/-- The head a trip of the loop works on. -/
def headOfTrip (k : Fin k0_t1_loop.trips) : Fin 4 := ⟨k.val, Nat.lt_of_lt_of_le k.isLt k0_t1_abs.2.1⟩

/-- Trip k's key slice at (p, w) is the key tile at (p, 64 k + w). -/
theorem keySlice_idx (k : Fin k0_t1_loop.trips) (p : Fin 256) (w : Fin 64) :
    (Rect.unit (s := S256x256) (k0_off1 k) S256x64.size (k0_off1_inb k)).idx (ix2 p w) = ix2 p (keyCol (headOfTrip k) w) := by
  funext a
  apply Fin.ext
  match a with
  | ⟨0, _⟩ =>
    show k0_off1 k 0 + 1 * p.val = p.val
    rw [off1_0]; omega
  | ⟨1, _⟩ =>
    show k0_off1 k 1 + 1 * w.val = 64 * k.val + w.val
    rw [off1_1]; omega

/-- Trip k's strength slice at (p, 0) is the strength tile at (p, k). -/
theorem betaSlice_idx (k : Fin k0_t1_loop.trips) (p : Fin 256) (u : Fin 1) :
    (Rect.unit (s := S256x4) (k0_off2 k) S256x1.size (k0_off2_inb k)).idx (ix2 p u) = ix2 p (headOfTrip k) := by
  funext a
  apply Fin.ext
  match a with
  | ⟨0, _⟩ =>
    show k0_off2 k 0 + 1 * p.val = p.val
    rw [off2_0]; omega
  | ⟨1, _⟩ =>
    show k0_off2 k 1 + 1 * u.val = k.val
    rw [off2_1]; omega

/-- Trip k's output tile at (p, j) lands at (p, 128 k + j) of the block. -/
theorem outTile_emb (k : Fin k0_t1_loop.trips) (p : Fin 256) (j : Fin 128) :
    (Rect.unit (s := S256x512) (k0_off3 k) S256x128.size (k0_off3_inb k)).emb (ix2 p j)
      = ix2 p (⟨128 * k.val + j.val, by have := Nat.lt_of_lt_of_le k.isLt k0_t1_abs.2.1; have := j.isLt; omega⟩ : Fin 512) := by
  funext a
  apply Fin.ext
  match a with
  | ⟨0, _⟩ =>
    show k0_off3 k 0 + 1 * p.val = p.val
    rw [off3_0]; omega
  | ⟨1, _⟩ =>
    show k0_off3 k 1 + 1 * j.val = 128 * k.val + j.val
    rw [off3_1]; omega

/-! ## One trip's tile restricts the block function -/

/-- The tile trip k stores, at its local entry x, is the block function at the place x lands. -/
theorem piece_value (arg8 : Memref sig .tc .vmem S256x256 .f32) (arg9 : Memref sig .tc .vmem S256x4 .f32)
    (x0 : Vec Ideal S256x512 .f32) (x1 : Vec Ideal S256x8192 .f32) (x2 : Vec Ideal S512x256 .f32) (x3 : Vec Ideal S256 .f32) (x4 : Vec Ideal S512x4 .f32) (x5 : Vec Ideal S4 .f32) (k : Fin k0_t1_loop.trips) (x : S256x128.Idx) :
    k0_pay1 (F := Ideal) (k0_pay4 x1) (k0_pay5 x1)
        (View.readAt (Elt Ideal) arg8.view (Rect.unit (s := S256x256) (k0_off1 k) S256x64.size (k0_off1_inb k)).toLoadRect (arg8.view.writes (Elt Ideal) arg8.view.junk [⟨Rect.unit ![0, 0] S256x256.size inb_S256x256_S256x256_0_0, k0_pay2 x0 x2 x3⟩]))
        (View.readAt (Elt Ideal) arg9.view (Rect.unit (s := S256x4) (k0_off2 k) S256x1.size (k0_off2_inb k)).toLoadRect (arg9.view.writes (Elt Ideal) arg9.view.junk [⟨Rect.unit ![0, 0] S256x4.size inb_S256x4_S256x4_0_0, k0_pay3 x0 x4 x5⟩])) x
      = flat 256 x0 x1 x2 x3 x4 x5 ((Rect.unit (s := S256x512) (k0_off3 k) S256x128.size (k0_off3_inb k)).emb x) := by
  obtain ⟨p, j, rfl⟩ : ∃ (p : Fin 256) (j : Fin 128), x = ix2 p j := ⟨x 0, x 1, eq_ix2 x⟩
  rw [View.readAt_eq_ld, View.readAt_eq_ld, read_whole_store _ _ hz2, read_whole_store _ _ hz2, outTile_emb,
    Projections.pay5_eq, HeadPayload.pay1_apply]
  show _ = outRow (fun kk => x0 (ix2 p kk)) (fun jj w => x1 (ix2 p (memCol jj w))) (fun kk cc => x2 (ix2 kk cc)) (fun cc => x3 (ix1 cc))
      (fun kk a => x4 (ix2 kk a)) (fun a => x5 (ix1 a))
      (headOf ⟨128 * k.val + j.val, by have := Nat.lt_of_lt_of_le k.isLt k0_t1_abs.2.1; have := j.isLt; omega⟩)
      (slotOf ⟨128 * k.val + j.val, by have := Nat.lt_of_lt_of_le k.isLt k0_t1_abs.2.1; have := j.isLt; omega⟩)
  have hh : headOf ⟨128 * k.val + j.val, by have := Nat.lt_of_lt_of_le k.isLt k0_t1_abs.2.1; have := j.isLt; omega⟩ = headOfTrip k :=
    Fin.ext (by show (128 * k.val + j.val) / 128 = k.val; have := j.isLt; omega)
  have hs : slotOf ⟨128 * k.val + j.val, by have := Nat.lt_of_lt_of_le k.isLt k0_t1_abs.2.1; have := j.isLt; omega⟩ = j :=
    Fin.ext (by show (128 * k.val + j.val) % 128 = j.val; have := j.isLt; omega)
  rw [hh, hs]
  unfold outRow
  have hkey : ∀ w : Fin 64,
      k0_pay2 (F := Ideal) x0 x2 x3 ((Rect.unit (s := S256x256) (k0_off1 k) S256x64.size (k0_off1_inb k)).idx (ix2 p w))
        = keyAt (fun kk => x0 (ix2 p kk)) (fun kk cc => x2 (ix2 kk cc)) (fun cc => x3 (ix1 cc)) (keyCol (headOfTrip k) w) := by
    intro w
    rw [keySlice_idx]
    exact Projections.pay2_apply x0 x2 x3 p _
  have hbeta : k0_pay3 (F := Ideal) x0 x4 x5 ((Rect.unit (s := S256x4) (k0_off2 k) S256x1.size (k0_off2_inb k)).idx (ix2 p (0 : Fin 1)))
      = betaAt (fun kk => x0 (ix2 p kk)) (fun kk a => x4 (ix2 kk a)) (fun a => x5 (ix1 a)) (headOfTrip k) := by
    rw [betaSlice_idx]
    exact Projections.pay3_apply x0 x4 x5 p _
  show softmax (logit
        (fun w : Fin 64 => k0_pay2 (F := Ideal) x0 x2 x3 ((Rect.unit (s := S256x256) (k0_off1 k) S256x64.size (k0_off1_inb k)).idx (ix2 p w)))
        (fun (jj : Fin 128) (w : Fin 64) => k0_pay4 (F := Ideal) x1 (ix3 p jj w))
        (k0_pay3 (F := Ideal) x0 x4 x5 ((Rect.unit (s := S256x4) (k0_off2 k) S256x1.size (k0_off2_inb k)).idx (ix2 p (0 : Fin 1))))) j = _
  simp only [hkey, hbeta, Projections.pay4_apply]

/-! ## The pieces of the whole loop -/

/-- Trip k stores exactly one tile: the head's payload of the memory tile and the two scratch slices, at columns from 128 k. -/
theorem trip_pieces (𝒱 : Variants) (bd : Option 𝒱.V) (c : Dev nD) (i : grid0.Coords) (arg1 : Memref sig .tc .vmem S256x512 .f32) (harg1 : arg1.IsWhole) (arg2 : Memref sig .tc .vmem S256x8192 .f32) (harg2 : arg2.IsWhole) (arg3 : Memref sig .tc .vmem S512x256 .f32) (harg3 : arg3.IsWhole) (arg4 : Memref sig .tc .vmem S256 .f32) (harg4 : arg4.IsWhole) (arg5 : Memref sig .tc .vmem S512x4 .f32) (harg5 : arg5.IsWhole) (arg6 : Memref sig .tc .vmem S4 .f32) (harg6 : arg6.IsWhole) (arg7 : Memref sig .tc .vmem S256x512 .f32) (harg7 : arg7.IsWhole) (arg8 : Memref sig .tc .vmem S256x256 .f32) (harg8 : arg8.IsWhole) (arg9 : Memref sig .tc .vmem S256x4 .f32) (harg9 : arg9.IsWhole) (v36 v37 : FVec Ideal S256x128x64 .f32)
    (X8 : BufTy.Contents (Elt Ideal) arg8.view.ty) (X9 : BufTy.Contents (Elt Ideal) arg9.view.ty) (k : Fin k0_t1_loop.trips) :
    tripL_k0_t1 (F := Ideal) 𝒱 c bd i arg1 harg1 arg2 harg2 arg3 harg3 arg4 harg4 arg5 harg5 arg6 harg6 arg7 harg7 arg8 harg8 arg9 harg9 v36 v37 X8 X9 k
      = [⟨Rect.unit (s := S256x512) (k0_off3 k) S256x128.size (k0_off3_inb k),
          k0_pay1 v36 v37 (View.readAt (Elt Ideal) arg8.view (Rect.unit (s := S256x256) (k0_off1 k) S256x64.size (k0_off1_inb k)).toLoadRect X8)
            (View.readAt (Elt Ideal) arg9.view (Rect.unit (s := S256x4) (k0_off2 k) S256x1.size (k0_off2_inb k)).toLoadRect X9)⟩] := by
  unfold tripL_k0_t1 trip_k0_t1
  dsimp only

/-- Every tile stored before trip n restricts the block function. -/
theorem pb_restricts (𝒱 : Variants) (bd : Option 𝒱.V) (c : Dev nD) (i : grid0.Coords) (arg1 : Memref sig .tc .vmem S256x512 .f32) (harg1 : arg1.IsWhole) (arg2 : Memref sig .tc .vmem S256x8192 .f32) (harg2 : arg2.IsWhole) (arg3 : Memref sig .tc .vmem S512x256 .f32) (harg3 : arg3.IsWhole) (arg4 : Memref sig .tc .vmem S256 .f32) (harg4 : arg4.IsWhole) (arg5 : Memref sig .tc .vmem S512x4 .f32) (harg5 : arg5.IsWhole) (arg6 : Memref sig .tc .vmem S4 .f32) (harg6 : arg6.IsWhole) (arg7 : Memref sig .tc .vmem S256x512 .f32) (harg7 : arg7.IsWhole) (arg8 : Memref sig .tc .vmem S256x256 .f32) (harg8 : arg8.IsWhole) (arg9 : Memref sig .tc .vmem S256x4 .f32) (harg9 : arg9.IsWhole) (x0 : Vec Ideal S256x512 .f32) (x1 : Vec Ideal S256x8192 .f32) (x2 : Vec Ideal S512x256 .f32) (x3 : Vec Ideal S256 .f32) (x4 : Vec Ideal S512x4 .f32) (x5 : Vec Ideal S4 .f32) :
    ∀ n : ℕ, ∀ pc ∈ pb_k0_t1 (F := Ideal) 𝒱 c bd i arg1 harg1 arg2 harg2 arg3 harg3 arg4 harg4 arg5 harg5 arg6 harg6 arg7 harg7 arg8 harg8 arg9 harg9 (k0_pay4 x1) (k0_pay5 x1) (arg8.view.writes (Elt Ideal) arg8.view.junk [⟨Rect.unit ![0, 0] S256x256.size inb_S256x256_S256x256_0_0, k0_pay2 x0 x2 x3⟩]) (arg9.view.writes (Elt Ideal) arg9.view.junk [⟨Rect.unit ![0, 0] S256x4.size inb_S256x4_S256x4_0_0, k0_pay3 x0 x4 x5⟩]) n,
      ∀ x : pc.1.shape.Idx, pc.2 x = flat 256 x0 x1 x2 x3 x4 x5 (pc.1.emb x)
  | 0 => by
    rw [pb_k0_t1.eq_1]
    intro pc h
    exact absurd h List.not_mem_nil
  | n + 1 => by
    rw [pb_k0_t1.eq_2]
    unfold pb_k0_t1Step
    split
    · next h =>
      intro pc hpc
      rcases List.mem_append.mp hpc with h1 | h2
      · rw [trip_pieces, List.mem_singleton] at h1
        subst h1
        exact fun x => piece_value arg8 arg9 x0 x1 x2 x3 x4 x5 ⟨n, h⟩ x
      · exact pb_restricts 𝒱 bd c i arg1 harg1 arg2 harg2 arg3 harg3 arg4 harg4 arg5 harg5 arg6 harg6 arg7 harg7 arg8 harg8 arg9 harg9 x0 x1 x2 x3 x4 x5 n pc h2
    · exact pb_restricts 𝒱 bd c i arg1 harg1 arg2 harg2 arg3 harg3 arg4 harg4 arg5 harg5 arg6 harg6 arg7 harg7 arg8 harg8 arg9 harg9 x0 x1 x2 x3 x4 x5 n

/-- The run's pieces are the loop's, over the memory tile and the two scratch buffers as the body filled them. -/
theorem run_pieces (c : Dev nD) (i : grid0.Coords) (arg1 : Memref sig .tc .vmem S256x512 .f32) (harg1 : arg1.IsWhole) (arg2 : Memref sig .tc .vmem S256x8192 .f32) (harg2 : arg2.IsWhole) (arg3 : Memref sig .tc .vmem S512x256 .f32) (harg3 : arg3.IsWhole) (arg4 : Memref sig .tc .vmem S256 .f32) (harg4 : arg4.IsWhole) (arg5 : Memref sig .tc .vmem S512x4 .f32) (harg5 : arg5.IsWhole) (arg6 : Memref sig .tc .vmem S4 .f32) (harg6 : arg6.IsWhole) (arg7 : Memref sig .tc .vmem S256x512 .f32) (harg7 : arg7.IsWhole) (arg8 : Memref sig .tc .vmem S256x256 .f32) (harg8 : arg8.IsWhole) (arg9 : Memref sig .tc .vmem S256x4 .f32) (harg9 : arg9.IsWhole) (x0 : Vec Ideal S256x512 .f32) (x1 : Vec Ideal S256x8192 .f32) (x2 : Vec Ideal S512x256 .f32) (x3 : Vec Ideal S256 .f32) (x4 : Vec Ideal S512x4 .f32) (x5 : Vec Ideal S4 .f32) :
    (kernelRun0_A (F := Ideal) c i arg1 harg1 arg2 harg2 arg3 harg3 arg4 harg4 arg5 harg5 arg6 harg6 arg7 harg7 arg8 harg8 arg9 harg9 x0 x1 x2 x3 x4 x5).1
      = pb_k0_t1 (F := Ideal) Variants.none c none i arg1 harg1 arg2 harg2 arg3 harg3 arg4 harg4 arg5 harg5 arg6 harg6 arg7 harg7 arg8 harg8 arg9 harg9 (k0_pay4 x1) (k0_pay5 x1) (arg8.view.writes (Elt Ideal) arg8.view.junk [⟨Rect.unit ![0, 0] S256x256.size inb_S256x256_S256x256_0_0, k0_pay2 x0 x2 x3⟩]) (arg9.view.writes (Elt Ideal) arg9.view.junk [⟨Rect.unit ![0, 0] S256x4.size inb_S256x4_S256x4_0_0, k0_pay3 x0 x4 x5⟩]) k0_t1_loop.trips := by
  unfold kernelRun0_A
  dsimp only
  sl_unfold_words
  rw [readAt_whole arg1 harg1 hz2, readAt_whole arg2 harg2 hz2, readAt_whole arg3 harg3 hz2, readAt_whole arg4 harg4 hz1,
    readAt_whole arg5 harg5 hz2, readAt_whole arg6 harg6 hz1]

/-- THE BLOCK: what a grid point leaves in the output's staging buffer is the flat result of its 256 rows. -/
theorem out0_A_6_eq (c : Dev nD) (i : grid0.Coords) (arg1 : Memref sig .tc .vmem S256x512 .f32) (harg1 : arg1.IsWhole) (arg2 : Memref sig .tc .vmem S256x8192 .f32) (harg2 : arg2.IsWhole) (arg3 : Memref sig .tc .vmem S512x256 .f32) (harg3 : arg3.IsWhole) (arg4 : Memref sig .tc .vmem S256 .f32) (harg4 : arg4.IsWhole) (arg5 : Memref sig .tc .vmem S512x4 .f32) (harg5 : arg5.IsWhole) (arg6 : Memref sig .tc .vmem S4 .f32) (harg6 : arg6.IsWhole) (arg7 : Memref sig .tc .vmem S256x512 .f32) (harg7 : arg7.IsWhole) (arg8 : Memref sig .tc .vmem S256x256 .f32) (harg8 : arg8.IsWhole) (arg9 : Memref sig .tc .vmem S256x4 .f32) (harg9 : arg9.IsWhole) (x0 : Vec Ideal S256x512 .f32) (x1 : Vec Ideal S256x8192 .f32) (x2 : Vec Ideal S512x256 .f32) (x3 : Vec Ideal S256 .f32) (x4 : Vec Ideal S512x4 .f32) (x5 : Vec Ideal S4 .f32) :
    out0_A_6 (F := Ideal) c i arg1 harg1 arg2 harg2 arg3 harg3 arg4 harg4 arg5 harg5 arg6 harg6 arg7 harg7 arg8 harg8 arg9 harg9 x0 x1 x2 x3 x4 x5 = flat 256 x0 x1 x2 x3 x4 x5 := by
  unfold out0_A_6
  rw [View.read_writes_eq_canon _ _ _ (cover0_A_6 c i arg1 harg1 arg2 harg2 arg3 harg3 arg4 harg4 arg5 harg5 arg6 harg6 arg7 harg7 arg8 harg8 arg9 harg9 x0 x1 x2 x3 x4 x5)]
  funext y
  refine View.canon_apply_of_pieces (flat 256 x0 x1 x2 x3 x4 x5) _ ?_ y (cover0_A_6 c i arg1 harg1 arg2 harg2 arg3 harg3 arg4 harg4 arg5 harg5 arg6 harg6 arg7 harg7 arg8 harg8 arg9 harg9 x0 x1 x2 x3 x4 x5 y)
  rw [run_pieces]
  exact pb_restricts Variants.none none c i arg1 harg1 arg2 harg2 arg3 harg3 arg4 harg4 arg5 harg5 arg6 harg6 arg7 harg7 arg8 harg8 arg9 harg9 x0 x1 x2 x3 x4 x5 _

end Cert.KernelIdeal.BlockValue

end
-- ==== Proof.ArrayValue.lean ====
/-
  From the grid's blocks to the program's result.

  Grid point t works on batch rows 256 t … 256 t + 255: its hidden block and its block of the flat memory are those rows
  of the arrays, the four parameter arrays are fetched whole, and its output block is those rows of the flat result.
  No batch row depends on another, so the block function of the point's input blocks IS the flat result of the whole
  arrays read through the point's rectangle; the 32 blocks tile the [8192, 512] array, which therefore ends holding the
  flat result. Around the region the program only re-lays data: before it the memory [8192, 128, 64] is reshaped to
  [8192, 8192] (entry (b, 64 j + w) is the memory at (b, j, w)); after it the flat result [8192, 512] is reshaped to
  [8192, 4, 128] (entry (b, a, j) is the flat result at (b, 128 a + j)). Composed, the program's result is the
  specification's array of its arguments.
-/
import proofs.«118651_j86260123174144_2_alg».proof.Proof.Gen.KernelIdeal.Frame
import proofs.«118651_j86260123174144_2_alg».proof.Proof.BlockValue
import Idealize.ShloMosaic.Lib.Pipeline.Value
import Idealize.ShloMosaic.Lib.ValueIdx
import Idealize.ShloMosaic.Lib.StableHlo.Run

set_option maxRecDepth 16384

noncomputable section

namespace Cert.KernelIdeal.ArrayValue

open Cert.KernelIdeal Cert.KernelIdeal.Gen Idealize.ShloMosaic Idealize.ShloMosaic.TcCoe Idealize.ShloMosaic.Tactic
open Idealize.ShloMosaic.ValueIdx Idealize.SL Idealize.SL.Sem Addressing
open Idealize.ShloMosaic.Pipeline (Dat Cfg Window)

variable (m : (ℓ : Loc nD τ sig) → Buf (Elt Ideal) ℓ) (ρ : Dev nD → PrngReg)

/-- The flat result of the arrays as the region finds them. -/
abbrev flatResult (c : Dev nD) : S8192x512.Idx → EReal :=
  flat 8192 (V m c main_arg0) (V m c main_v0) (V m c main_arg2) (V m c main_arg3) (V m c main_arg4) (V m c main_arg5)

/-- The printed index maps over the grid: the hidden, memory and output windows move together along the batch axis,
    the parameter windows stay at block zero. -/
theorem idx_facts : ∀ t : Fin cfg0.N,
    win0_0.index t (0 : Fin 2) = win0_6.index t (0 : Fin 2) ∧ win0_0.index t (1 : Fin 2) = 0
    ∧ win0_1.index t (0 : Fin 2) = win0_6.index t (0 : Fin 2) ∧ win0_1.index t (1 : Fin 2) = 0
    ∧ win0_2.index t (0 : Fin 2) = 0 ∧ win0_2.index t (1 : Fin 2) = 0
    ∧ win0_3.index t (0 : Fin 1) = 0
    ∧ win0_4.index t (0 : Fin 2) = 0 ∧ win0_4.index t (1 : Fin 2) = 0
    ∧ win0_5.index t (0 : Fin 1) = 0
    ∧ win0_6.index t (1 : Fin 2) = 0 ∧ win0_6.index t (0 : Fin 2) ≤ 31 :=
  (by decide +kernel : ∀ t : Fin grid0.N, _)

/-- Every block of 256 batch rows is some point's. -/
theorem idx_onto : ∀ q0 : Fin 32, ∃ t : Fin cfg0.N, win0_6.index t = ![q0.val, 0] :=
  (by decide +kernel : ∀ q0 : Fin 32, ∃ t : Fin grid0.N, win0_6.index t = ![q0.val, 0])

/-- WHAT POINT t WRITES BACK is block t of the flat result. -/
theorem flushed_eq (c : Dev nD) (t : Fin cfg0.N) :
    (dats (F := Ideal) m 0 c).flushed 6 t = ((cfg0.win 6).blk t).view.read (Elt Ideal) (flatResult m c) := by
  show (cfg0.win 6).cut (grid0.coords t) ((dats (F := Ideal) m 0 c).after 6 t) = _
  rw [after0_6]
  unfold outsAt0
  rw [BlockValue.out0_A_6_eq]
  obtain ⟨e00, e01, e10, e11, e20, e21, e30, e40, e41, e50, e61, e60⟩ := idx_facts t
  funext j
  obtain ⟨p, q, rfl⟩ : ∃ (p : Fin 256) (q : Fin 512), j = ix2 p q := ⟨j 0, j 1, eq_ix2 j⟩
  have hr : win0_6.index t (0 : Fin 2) * 256 + p.val < 8192 := by have := p.isLt; omega
  have hemb : ((cfg0.win 6).blk t).view.emb (ix2 p q) = ix2 (⟨win0_6.index t (0 : Fin 2) * 256 + p.val, hr⟩ : Fin 8192) q := by
    funext a; apply Fin.ext
    match a with
    | ⟨0, _⟩ => show win0_6.index t (0 : Fin 2) * 256 + 1 * p.val = win0_6.index t (0 : Fin 2) * 256 + p.val; omega
    | ⟨1, _⟩ => show win0_6.index t (1 : Fin 2) * 512 + 1 * q.val = q.val; omega
  show flat 256 (iblk m c 0 t) (iblk m c 1 t) (iblk m c 2 t) (iblk m c 3 t) (iblk m c 4 t) (iblk m c 5 t) (ix2 p q)
      = flatResult m c (((cfg0.win 6).blk t).view.emb (ix2 p q))
  rw [hemb]
  have h0 : (fun k : Fin 512 => iblk m c 0 t (ix2 p k))
      = fun k => V m c main_arg0 (ix2 (⟨win0_6.index t (0 : Fin 2) * 256 + p.val, hr⟩ : Fin 8192) k) := by
    funext k
    show V m c main_arg0 (((cfg0.win 0).blk t).view.emb (ix2 p k)) = _
    refine congrArg (V m c main_arg0) (funext fun a => Fin.ext ?_)
    match a with
    | ⟨0, _⟩ => show win0_0.index t (0 : Fin 2) * 256 + 1 * p.val = win0_6.index t (0 : Fin 2) * 256 + p.val; omega
    | ⟨1, _⟩ => show win0_0.index t (1 : Fin 2) * 512 + 1 * k.val = k.val; omega
  have h1 : (fun (jj : Fin 128) (w : Fin 64) => iblk m c 1 t (ix2 p (memCol jj w)))
      = fun jj w => V m c main_v0 (ix2 (⟨win0_6.index t (0 : Fin 2) * 256 + p.val, hr⟩ : Fin 8192) (memCol jj w)) := by
    funext jj w
    show V m c main_v0 (((cfg0.win 1).blk t).view.emb (ix2 p (memCol jj w))) = _
    refine congrArg (V m c main_v0) (funext fun a => Fin.ext ?_)
    match a with
    | ⟨0, _⟩ => show win0_1.index t (0 : Fin 2) * 256 + 1 * p.val = win0_6.index t (0 : Fin 2) * 256 + p.val; omega
    | ⟨1, _⟩ => show win0_1.index t (1 : Fin 2) * 8192 + 1 * (memCol jj w).val = (memCol jj w).val; omega
  have h2 : (fun (k : Fin 512) (cc : Fin 256) => iblk m c 2 t (ix2 k cc)) = fun k cc => V m c main_arg2 (ix2 k cc) := by
    funext k cc
    show V m c main_arg2 (((cfg0.win 2).blk t).view.emb (ix2 k cc)) = _
    refine congrArg (V m c main_arg2) (funext fun a => Fin.ext ?_)
    match a with
    | ⟨0, _⟩ => show win0_2.index t (0 : Fin 2) * 512 + 1 * k.val = k.val; omega
    | ⟨1, _⟩ => show win0_2.index t (1 : Fin 2) * 256 + 1 * cc.val = cc.val; omega
  have h3 : (fun cc : Fin 256 => iblk m c 3 t (ix1 cc)) = fun cc => V m c main_arg3 (ix1 cc) := by
    funext cc
    show V m c main_arg3 (((cfg0.win 3).blk t).view.emb (ix1 cc)) = _
    refine congrArg (V m c main_arg3) (funext fun a => Fin.ext ?_)
    match a with
    | ⟨0, _⟩ => show win0_3.index t (0 : Fin 1) * 256 + 1 * cc.val = cc.val; omega
  have h4 : (fun (k : Fin 512) (a : Fin 4) => iblk m c 4 t (ix2 k a)) = fun k a => V m c main_arg4 (ix2 k a) := by
    funext k a'
    show V m c main_arg4 (((cfg0.win 4).blk t).view.emb (ix2 k a')) = _
    refine congrArg (V m c main_arg4) (funext fun a => Fin.ext ?_)
    match a with
    | ⟨0, _⟩ => show win0_4.index t (0 : Fin 2) * 512 + 1 * k.val = k.val; omega
    | ⟨1, _⟩ => show win0_4.index t (1 : Fin 2) * 4 + 1 * a'.val = a'.val; omega
  have h5 : (fun a : Fin 4 => iblk m c 5 t (ix1 a)) = fun a => V m c main_arg5 (ix1 a) := by
    funext a'
    show V m c main_arg5 (((cfg0.win 5).blk t).view.emb (ix1 a')) = _
    refine congrArg (V m c main_arg5) (funext fun a => Fin.ext ?_)
    match a with
    | ⟨0, _⟩ => show win0_5.index t (0 : Fin 1) * 4 + 1 * a'.val = a'.val; omega
  show outRow (fun k : Fin 512 => iblk m c 0 t (ix2 p k)) (fun (jj : Fin 128) (w : Fin 64) => iblk m c 1 t (ix2 p (memCol jj w)))
        (fun (k : Fin 512) (cc : Fin 256) => iblk m c 2 t (ix2 k cc)) (fun cc : Fin 256 => iblk m c 3 t (ix1 cc))
        (fun (k : Fin 512) (a : Fin 4) => iblk m c 4 t (ix2 k a)) (fun a : Fin 4 => iblk m c 5 t (ix1 a)) (headOf q) (slotOf q)
      = outRow (fun k => V m c main_arg0 (ix2 (⟨win0_6.index t (0 : Fin 2) * 256 + p.val, hr⟩ : Fin 8192) k))
        (fun jj w => V m c main_v0 (ix2 (⟨win0_6.index t (0 : Fin 2) * 256 + p.val, hr⟩ : Fin 8192) (memCol jj w)))
        (fun k cc => V m c main_arg2 (ix2 k cc)) (fun cc => V m c main_arg3 (ix1 cc))
        (fun k a => V m c main_arg4 (ix2 k a)) (fun a => V m c main_arg5 (ix1 a)) (headOf q) (slotOf q)
  rw [h0, h1, h2, h3, h4, h5]

/-- An index of the flat array is in point t's block iff each coordinate is in the block's range. -/
theorem mem_blk (t : Fin cfg0.N) (i : S8192x512.Idx) :
    i ∈ ((cfg0.win 6).blk t).view.set ↔ ∀ a : Fin 2, win0_6.index t a * S256x512.size a ≤ (i a).val ∧ (i a).val < win0_6.index t a * S256x512.size a + S256x512.size a := by
  show i ∈ ((View.whole main_v1).slice (win0_6.rect t)).set ↔ _
  rw [View.set_slice_whole, Rect.mem_set_unit]
  exact Iff.rfl

/-- THE FLAT ARRAY after the run is the flat result: the 32 blocks tile it. -/
theorem final (c : Dev nD) : (dats (F := Ideal) m 0 c).arrAt 6 cfg0.N = flatResult m c :=
  (dats (F := Ideal) m 0 c).arrAt_eq_of_cover 6 (flatResult m c) (fun t _ => flushed_eq m c t) fun i => by
    have hi0 : (i 0).val < 8192 := (i 0).isLt
    have hi1 : (i 1).val < 512 := (i 1).isLt
    obtain ⟨t, ht⟩ := idx_onto ⟨(i 0).val / 256, by omega⟩
    have q0 : win0_6.index t (0 : Fin 2) = (i 0).val / 256 := congrFun ht 0
    have q1 : win0_6.index t (1 : Fin 2) = 0 := congrFun ht 1
    refine ⟨t, flush0_6 t, ?_⟩
    rw [mem_blk]
    intro a
    match a with
    | ⟨0, _⟩ => show win0_6.index t (0 : Fin 2) * 256 ≤ (i 0).val ∧ (i 0).val < win0_6.index t (0 : Fin 2) * 256 + 256; omega
    | ⟨1, _⟩ => show win0_6.index t (1 : Fin 2) * 512 ≤ (i 1).val ∧ (i 1).val < win0_6.index t (1 : Fin 2) * 512 + 512; omega

/-! ## Around the region -/

/-- The region finds the memory in its flat view: the one host line before it is the reshape [8192, 128, 64] → [8192, 8192]. -/
theorem V_main_v0 (c : Dev nD) :
    (V m c main_v0 : S8192x8192.Idx → EReal)
      = shapeCast S8192x8192 (m ((c : Thread nD τ).loc main_arg1)) shapeCasts_S8192x128x64_S8192x8192 := by
  show StableHlo.after hostOps0 (fun b => m (c, b)) (Proc.devRef .tc main_v0) = _
  after_results
  rfl

/-- The flat memory at (b, 64 j + w) is the memory at (b, j, w). -/
theorem V_main_v0_apply (c : Dev nD) (b : Fin 8192) (j : Fin 128) (w : Fin 64) :
    (V m c main_v0 : S8192x8192.Idx → EReal) (ix2 b (memCol j w)) = m ((c : Thread nD τ).loc main_arg1) (ix3 b j w) := by
  rw [V_main_v0]
  refine shapeCast_apply (s := S8192x128x64) (t := S8192x8192) _ _ _ _ ?_
  show (S8192x128x64.rowMajor (ix3 b j w)).val = (S8192x8192.rowMajor (ix2 b (memCol j w))).val
  rw [Shape.rowMajor_val_two, Shape.rowMajor_val_three]
  show (b.val * 128 + j.val) * 64 + w.val = b.val * 8192 + (64 * j.val + w.val)
  omega

/-- The program's result: the one host line after the region reshapes the flat array [8192, 512] → [8192, 4, 128]. -/
theorem tail_eq (c : Dev nD) :
    Pipeline.afterTail₀ cfgs (dats (F := Ideal) m) 0 (V0 m) [hostOps1] c main_v2
      = shapeCast S8192x4x128 (flatResult m c) shapeCasts_S8192x512_S8192x4x128 := by
  unfold Pipeline.afterTail₀
  show StableHlo.after hostOps1 _ (Proc.devRef .tc main_v2) = _
  after_results
  have hw : (Pipeline.withArrays (cfgs 0).spec c (V0 m c) (fun w => (dats (F := Ideal) m 0 c).arrAt w (cfgs 0).N)
      (Proc.devRef .tc main_v1) : S8192x512.Idx → EReal) = flatResult m c :=
    (Pipeline.withArrays_arr spec0 launch0.win.arr_inj c _ _ 6).trans (final m c)
  rw [hw]
  rfl

/-- The program's result array is the specification's array of the arguments. -/
theorem result_eq (c : Dev nD) :
    Pipeline.afterTail₀ cfgs (dats (F := Ideal) m) 0 (V0 m) [hostOps1] c main_v2
      = Addressing.result (m ((c : Thread nD τ).loc main_arg0)) (m ((c : Thread nD τ).loc main_arg1))
          (m ((c : Thread nD τ).loc main_arg2)) (m ((c : Thread nD τ).loc main_arg3))
          (m ((c : Thread nD τ).loc main_arg4)) (m ((c : Thread nD τ).loc main_arg5)) := by
  rw [tail_eq]
  funext i
  obtain ⟨b, a, j, rfl⟩ : ∃ (b : Fin 8192) (a : Fin 4) (j : Fin 128), i = ix3 b a j := ⟨i 0, i 1, i 2, eq_ix3 i⟩
  have hq : 128 * a.val + j.val < 512 := by have := a.isLt; have := j.isLt; omega
  rw [shapeCast_apply (flatResult m c) shapeCasts_S8192x512_S8192x4x128 (ix3 b a j) (ix2 b (⟨128 * a.val + j.val, hq⟩ : Fin 512)) (by
    rw [Shape.rowMajor_val_two, Shape.rowMajor_val_three]
    show b.val * 512 + (128 * a.val + j.val) = (b.val * 4 + a.val) * 128 + j.val
    omega)]
  have hh : headOf (⟨128 * a.val + j.val, hq⟩ : Fin 512) = a :=
    Fin.ext (by show (128 * a.val + j.val) / 128 = a.val; have := j.isLt; omega)
  have hs : slotOf (⟨128 * a.val + j.val, hq⟩ : Fin 512) = j :=
    Fin.ext (by show (128 * a.val + j.val) % 128 = j.val; have := j.isLt; omega)
  show outRow (fun k => V m c main_arg0 (ix2 b k)) (fun jj w => V m c main_v0 (ix2 b (memCol jj w)))
        (fun k cc => V m c main_arg2 (ix2 k cc)) (fun cc => V m c main_arg3 (ix1 cc))
        (fun k a' => V m c main_arg4 (ix2 k a')) (fun a' => V m c main_arg5 (ix1 a'))
        (headOf (⟨128 * a.val + j.val, hq⟩ : Fin 512)) (slotOf (⟨128 * a.val + j.val, hq⟩ : Fin 512))
      = outRow (fun k => m ((c : Thread nD τ).loc main_arg0) (ix2 b k)) (fun jj w => m ((c : Thread nD τ).loc main_arg1) (ix3 b jj w))
        (fun k cc => m ((c : Thread nD τ).loc main_arg2) (ix2 k cc)) (fun cc => m ((c : Thread nD τ).loc main_arg3) (ix1 cc))
        (fun k a' => m ((c : Thread nD τ).loc main_arg4) (ix2 k a')) (fun a' => m ((c : Thread nD τ).loc main_arg5) (ix1 a')) a j
  have h1 : (fun (jj : Fin 128) (w : Fin 64) => (V m c main_v0 : S8192x8192.Idx → EReal) (ix2 b (memCol jj w)))
      = fun jj w => m ((c : Thread nD τ).loc main_arg1) (ix3 b jj w) := by
    funext jj w; exact V_main_v0_apply m c b jj w
  rw [hh, hs, V_main_arg0, V_main_arg2, V_main_arg3, V_main_arg4, V_main_arg5]
  exact congrArg (fun f => outRow _ f _ _ _ _ a j) h1

/-- THE KERNEL'S RUN, READ: its result array ends at the specification's array of the arguments, the arguments unchanged. -/
theorem run : θ_run defs (onTc (τ := τ) (main (F := Ideal))) ⟨m, fun _ => 0, ρ⟩ fun r => ∀ c : Dev nD,
      r.2.mem ((c.tc : Thread nD τ).loc main_v2)
        = Addressing.result (m ((c.tc : Thread nD τ).loc main_arg0)) (m ((c.tc : Thread nD τ).loc main_arg1))
            (m ((c.tc : Thread nD τ).loc main_arg2)) (m ((c.tc : Thread nD τ).loc main_arg3))
            (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c =>
    ⟨((h c).2 main_v2 (Pipeline.mem_restRefs_of main_v2 (by decide) (by decide))).trans (result_eq m c),
      ((h c).1 0).trans (((dats m 0 c).arrAt_in 0 rfl _).trans ((A_eq m c 0).trans (V_main_arg0 m c))),
      (((h c).2 main_arg1 (Pipeline.mem_restRefs_of main_arg1 (by decide) (by decide))).trans (W_main_arg1 m (dats m) c)),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c))),
      ((h c).1 4).trans (((dats m 0 c).arrAt_in 4 rfl _).trans ((A_eq m c 4).trans (V_main_arg4 m c))),
      ((h c).1 5).trans (((dats m 0 c).arrAt_in 5 rfl _).trans ((A_eq m c 5).trans (V_main_arg5 m c)))⟩)
    (run_main m ρ)

end Cert.KernelIdeal.ArrayValue

end
-- ==== Proof.LibReduceLast3.lean ====
/-
  The host's one-axis `reduce` with a `maximum` body along the LAST axis of an `[a, b, c]` array, read at `(p, q)`.

  On the extended reals the reduce is the fold of `max` from its initial value over the `c` entries
  `x (p, q, k)`: the index of the reduced array with the coordinate `k` put back on axis 2 is `(p, q, k)`.
-/
import Idealize.ShloMosaic.PureOps.Ideal.Laws
import Idealize.ShloMosaic.Lib.ValueIdx

namespace LibReduceLast3

open Idealize.ShloMosaic Idealize.ShloMosaic.ValueIdx

variable {a b c : ℕ}

/-- Entry `(p, q)` of the reduced array with the coordinate `k` put back on the last axis is `(p, q, k)`. -/
theorem lift_last (h : Shape.Reduces ⟨3, ![a, b, c]⟩ [2] ⟨2, ![a, b]⟩) (p : Fin a) (q : Fin b) (k : Fin c) :
    h.lift (ix2 p q) k = ix3 p q k := by
  funext d
  apply Fin.ext
  match d with
  | ⟨0, h0⟩ =>
    show h.liftVal (ix2 p q) k.val ⟨0, h0⟩ = p.val
    unfold Shape.Reduces.liftVal
    split
    · next hc => exact absurd hc (show ¬ ((0 : ℕ) = 2) by decide)
    · split
      · rfl
      · next hlt => exact absurd (by decide : (0 : ℕ) < 2) hlt
  | ⟨1, h1⟩ =>
    show h.liftVal (ix2 p q) k.val ⟨1, h1⟩ = q.val
    unfold Shape.Reduces.liftVal
    split
    · next hc => exact absurd hc (show ¬ ((1 : ℕ) = 2) by decide)
    · split
      · rfl
      · next hlt => exact absurd (by decide : (1 : ℕ) < 2) hlt
  | ⟨2, h2⟩ =>
    show h.liftVal (ix2 p q) k.val ⟨2, h2⟩ = k.val
    unfold Shape.Reduces.liftVal
    split
    · rfl
    · next hc => exact absurd rfl hc

/-- The host's `reduce` with a `maximum` body along the last axis, at `(p, q)`: the fold of `max` from the initial
    value over the entries `x (p, q, k)`. -/
theorem hostMaxLast_apply {u : Shape} (x : (⟨3, ![a, b, c]⟩ : Shape).Idx → EReal) (init : u.Idx → EReal)
    (h' : Shape.ReducesTo ⟨3, ![a, b, c]⟩ [2] ⟨2, ![a, b]⟩) (h : Shape.Reduces ⟨3, ![a, b, c]⟩ [2] ⟨2, ![a, b]⟩)
    (hu : 0 < u.numel) (p : Fin a) (q : Fin b) :
    Host.reduce (FloatOps.maximumf (F := Ideal) (φ := .f32)) x init h' hu (ix2 p q)
      = (Finset.univ : Finset (Fin c)).fold max (init (Shape.Idx.first hu)) (fun k => x (ix3 p q k)) := by
  refine (Host.reduce_eq_fold_single (FloatOps.maximumf (F := Ideal) (φ := .f32)) x init h' h hu (ix2 p q)).trans ?_
  show (Finset.univ : Finset (Fin c)).fold max (init (Shape.Idx.first hu)) (x ∘ h.lift (ix2 p q)) = _
  exact congrArg (fun f => (Finset.univ : Finset (Fin c)).fold max (init (Shape.Idx.first hu)) f)
    (funext fun k => congrArg x (lift_last h p q k))

end LibReduceLast3
-- ==== Proof.RefSide.lean ====
/-
  The reference's result read at an entry.

  The reference computes the whole arrays at once: the key array tanh (hidden · Wk + bk) reshaped to [8192, 4, 64], the
  strengths softplus (hidden · Wβ + bβ), the batched dot products of key rows with memory rows, the two squared norms
  plus ε, the quotient scaled by the strength, and the softmax over the last axis. Read at entry (b, a, j) through the
  per-operation reading lemmas, each stage is the specification's row function of batch row b: nothing but the
  re-indexing of broadcasts, reshapes and one transpose separates them. Two spellings differ from the kernel's and are
  equal on the extended reals: the host's sums start from an explicit zero (0 + s = s), and the host negates where the
  kernel subtracts from zero (0 - y = -y); the guard inside softplus compares a value with itself and never fires.
-/
import proofs.«118651_j86260123174144_2_alg».proof.Proof.Gen.ReferenceIdeal.Read
import proofs.«118651_j86260123174144_2_alg».proof.Proof.Spec
import proofs.«118651_j86260123174144_2_alg».proof.Proof.LibReduceLast3
import proofs.«118651_j86260123174144_2_alg».proof.Proof.LibRowOps
import Idealize.ShloMosaic.PureOps.Ideal.Laws
import Idealize.ShloMosaic.Lib.ValueIdx

set_option maxRecDepth 16384

noncomputable section

namespace Cert.ReferenceIdeal.RefValue

open Cert.ReferenceIdeal Cert.ReferenceIdeal.Gen Cert.ReferenceIdeal.Read Idealize.ShloMosaic Idealize.ShloMosaic.ValueIdx Addressing

/-- The host's zero-started sum is the sum. -/
theorem zero_add' (s : EReal) : Ideal.ofBits .f32 0x00000000#32 + s = s := by rw [Ideal.ofBits_zero_f32, zero_add]

/-- softplus in the host's spelling (the guard an unordered comparison, the negation a negation) is softplus. -/
theorem softplus_host (x : EReal) :
    Scalar.select (FloatOps.cmpf (F := Ideal) (φ := .f32) .une (x - zero) (x - zero)) (x + zero)
      (max x zero + Ideal.log1p (Ideal.exp (-(max (x - zero) (-(x - zero)))))) = softplus x := by
  unfold softplus
  have h : zero - max (x - zero) (-(x - zero)) = -(max (x - zero) (-(x - zero))) := by
    show Ideal.ofBits .f32 0x00000000#32 - _ = _
    rw [Ideal.ofBits_zero_f32, zero_sub]
  rw [h]
  rfl

/-- The key array at (b, a, w): key column 64 a + w of batch row b. -/
theorem key_apply (x0 : (⟨S8192x512, .f32⟩ : BufTy).Contents (Elt Ideal)) (x2 : (⟨S512x256, .f32⟩ : BufTy).Contents (Elt Ideal)) (x3 : (⟨S256, .f32⟩ : BufTy).Contents (Elt Ideal)) (b : Fin 8192) (a : Fin 4) (w : Fin 64) :
    val_main_v5 (F := Ideal) x0 x2 x3 (ix3 b a w) = keyAt (fun k => x0 (ix2 b k)) (fun k c => x2 (ix2 k c)) (fun c => x3 (ix1 c)) (keyCol a w) := by
  have hi : idx_main_v5 (ix3 b a w) = ix2 b (keyCol a w) := by
    funext d; apply Fin.ext
    match d with
    | ⟨0, _⟩ => show ((b.val * 4 + a.val) * 64 + w.val) / 256 = b.val; have := a.isLt; have := w.isLt; omega
    | ⟨1, _⟩ => show ((b.val * 4 + a.val) * 64 + w.val) % 256 = 64 * a.val + w.val; have := a.isLt; have := w.isLt; omega
  have hl : ∀ k : Fin 512, lidx_main_v0 (ix2 b (keyCol a w)) k = ix2 b k := fun k => by funext d; apply Fin.ext; match d with | ⟨0, _⟩ => rfl | ⟨1, _⟩ => rfl
  have hr : ∀ k : Fin 512, ridx_main_v0 (ix2 b (keyCol a w)) k = ix2 k (keyCol a w) := fun k => by funext d; apply Fin.ext; match d with | ⟨0, _⟩ => rfl | ⟨1, _⟩ => rfl
  have h3 : idx_main_v1 (idx_main_v2 (ix2 b (keyCol a w))) = ix1 (keyCol a w) := by funext d; apply Fin.ext; match d with | ⟨0, _⟩ => rfl
  rw [val_main_v5_apply, hi, val_main_v4_apply, val_main_v3_apply, val_main_v0_apply, val_main_v2_apply, val_main_v1_apply, h3]
  simp only [hl, hr]
  rfl

/-- The strength array at (b, a). -/
theorem beta_apply (x0 : (⟨S8192x512, .f32⟩ : BufTy).Contents (Elt Ideal)) (x4 : (⟨S512x4, .f32⟩ : BufTy).Contents (Elt Ideal)) (x5 : (⟨S4, .f32⟩ : BufTy).Contents (Elt Ideal)) (b : Fin 8192) (a : Fin 4) :
    val_main_v10 (F := Ideal) x0 x4 x5 (ix2 b a) = betaAt (fun k => x0 (ix2 b k)) (fun k a' => x4 (ix2 k a')) (fun a' => x5 (ix1 a')) a := by
  have hl : ∀ k : Fin 512, lidx_main_v6 (ix2 b a) k = ix2 b k := fun k => by funext d; apply Fin.ext; match d with | ⟨0, _⟩ => rfl | ⟨1, _⟩ => rfl
  have hr : ∀ k : Fin 512, ridx_main_v6 (ix2 b a) k = ix2 k a := fun k => by funext d; apply Fin.ext; match d with | ⟨0, _⟩ => rfl | ⟨1, _⟩ => rfl
  have h5 : idx_main_v7 (idx_main_v8 (ix2 b a)) = ix1 a := by funext d; apply Fin.ext; match d with | ⟨0, _⟩ => rfl
  have hx : val_main_v9 (F := Ideal) x0 x4 x5 (ix2 b a) = (∑ k : Fin 512, x0 (ix2 b k) * x4 (ix2 k a)) + x5 (ix1 a) := by
    rw [val_main_v9_apply, val_main_v6_apply, val_main_v8_apply, val_main_v7_apply, h5]
    simp only [hl, hr]
    rfl
  rw [val_main_v10_apply, val_main_call0_v4_apply, val_main_call0_v6_apply, val_main_call0_v11_apply, val_main_call0_v1_apply,
    val_main_call0_v10_apply, val_main_call0_v9_apply, val_main_call0_v8_apply, val_main_call0_v7_apply, val_main_call0_v3_apply,
    val_main_call0_v0_apply, val_main_call0_v2_apply, val_main_call0_v5_apply, val_main_call0_cst_apply, hx]
  exact softplus_host _

/-- The scaled cosine similarities at (b, a, j). -/
theorem logit_apply (x0 : (⟨S8192x512, .f32⟩ : BufTy).Contents (Elt Ideal)) (x1 : (⟨S8192x128x64, .f32⟩ : BufTy).Contents (Elt Ideal)) (x2 : (⟨S512x256, .f32⟩ : BufTy).Contents (Elt Ideal)) (x3 : (⟨S256, .f32⟩ : BufTy).Contents (Elt Ideal)) (x4 : (⟨S512x4, .f32⟩ : BufTy).Contents (Elt Ideal)) (x5 : (⟨S4, .f32⟩ : BufTy).Contents (Elt Ideal)) (b : Fin 8192) (a : Fin 4) (j : Fin 128) :
    val_main_v32 (F := Ideal) x0 x1 x2 x3 x4 x5 (ix3 b a j)
      = logit (fun w => keyAt (fun k => x0 (ix2 b k)) (fun k c => x2 (ix2 k c)) (fun c => x3 (ix1 c)) (keyCol a w)) (fun jj w => x1 (ix3 b jj w)) (betaAt (fun k => x0 (ix2 b k)) (fun k a' => x4 (ix2 k a')) (fun a' => x5 (ix1 a')) a) j := by
  -- the strength, repeated along the memory axis
  have hb : val_main_v31 (F := Ideal) x0 x4 x5 (ix3 b a j) = betaAt (fun k => x0 (ix2 b k)) (fun k a' => x4 (ix2 k a')) (fun a' => x5 (ix1 a')) a := by
    have hi : idx_main_v11 (idx_main_v31 (ix3 b a j)) = ix2 b a := by
      funext d; apply Fin.ext
      match d with
      | ⟨0, _⟩ => show ((b.val * 4 + a.val) * 1 + 0) / 4 = b.val; have := a.isLt; omega
      | ⟨1, _⟩ => show ((b.val * 4 + a.val) * 1 + 0) % 4 = a.val; have := a.isLt; omega
    rw [val_main_v31_apply, val_main_v11_apply, hi, beta_apply]
  -- the dot products
  have hd : val_main_v12 (F := Ideal) x0 x1 x2 x3 (ix3 b a j)
      = ∑ w : Fin 64, keyAt (fun k => x0 (ix2 b k)) (fun k c => x2 (ix2 k c)) (fun c => x3 (ix1 c)) (keyCol a w) * x1 (ix3 b j w) := by
    have hl : ∀ k : Fin 64, lidx_main_v12 (ix3 b a j) k = ix3 b a k := fun k => by funext d; apply Fin.ext; match d with | ⟨0, _⟩ => rfl | ⟨1, _⟩ => rfl | ⟨2, _⟩ => rfl
    have hr : ∀ k : Fin 64, ridx_main_v12 (ix3 b a j) k = ix3 b j k := fun k => by funext d; apply Fin.ext; match d with | ⟨0, _⟩ => rfl | ⟨1, _⟩ => rfl | ⟨2, _⟩ => rfl
    rw [val_main_v12_apply]
    simp only [hl, hr, key_apply]
  -- the key row's squared norm plus ε, repeated
  have hu : val_main_v24 (F := Ideal) x0 x2 x3 (ix3 b a j)
      = (∑ w : Fin 64, keyAt (fun k => x0 (ix2 b k)) (fun k c => x2 (ix2 k c)) (fun c => x3 (ix1 c)) (keyCol a w) * keyAt (fun k => x0 (ix2 b k)) (fun k c => x2 (ix2 k c)) (fun c => x3 (ix1 c)) (keyCol a w)) + eps := by
    have hi : idx_main_v15 (idx_main_v24 (ix3 b a j)) = ix2 b a := by funext d; apply Fin.ext; match d with | ⟨0, _⟩ => rfl | ⟨1, _⟩ => rfl
    have hk : ∀ k : Fin 64, idx_main_v14 (ix2 b a) k = ix3 b a k := fun k => by funext d; apply Fin.ext; match d with | ⟨0, _⟩ => rfl | ⟨1, _⟩ => rfl | ⟨2, _⟩ => rfl
    rw [val_main_v24_apply, val_main_v17_apply, val_main_v15_apply, hi, val_main_v14_apply, val_main_v16_apply, val_main_cst_0_apply, val_main_cst_apply]
    simp only [hk, val_main_v13_apply, key_apply]
    exact congrArg (· + eps) (zero_add' _)
  -- the memory row's squared norm plus ε, transposed and repeated
  have hv : val_main_v25 (F := Ideal) x1 (ix3 b a j) = (∑ w : Fin 64, x1 (ix3 b j w) * x1 (ix3 b j w)) + eps := by
    have hi : idx_main_v20 (idx_main_v23 (idx_main_v25 (ix3 b a j))) = ix2 b j := by funext d; apply Fin.ext; match d with | ⟨0, _⟩ => rfl | ⟨1, _⟩ => rfl
    have hk : ∀ k : Fin 64, idx_main_v19 (ix2 b j) k = ix3 b j k := fun k => by funext d; apply Fin.ext; match d with | ⟨0, _⟩ => rfl | ⟨1, _⟩ => rfl | ⟨2, _⟩ => rfl
    rw [val_main_v25_apply, val_main_v23_apply, val_main_v22_apply, val_main_v20_apply, hi, val_main_v19_apply, val_main_v21_apply, val_main_cst_2_apply, val_main_cst_1_apply]
    simp only [hk, val_main_v18_apply]
    exact congrArg (· + eps) (zero_add' _)
  rw [val_main_v32_apply, val_main_v30_apply, val_main_v29_apply, val_main_v27_apply, val_main_v26_apply, val_main_v28_apply,
    val_main_cst_3_apply, hb, hd, hu, hv]
  rfl

/-- The row maximum at (b, a, j): the maximum over the memory axis of the logits of (b, a). -/
theorem rowmax_apply (x0 : (⟨S8192x512, .f32⟩ : BufTy).Contents (Elt Ideal)) (x1 : (⟨S8192x128x64, .f32⟩ : BufTy).Contents (Elt Ideal)) (x2 : (⟨S512x256, .f32⟩ : BufTy).Contents (Elt Ideal)) (x3 : (⟨S256, .f32⟩ : BufTy).Contents (Elt Ideal)) (x4 : (⟨S512x4, .f32⟩ : BufTy).Contents (Elt Ideal)) (x5 : (⟨S4, .f32⟩ : BufTy).Contents (Elt Ideal)) (b : Fin 8192) (a : Fin 4) (j : Fin 128) :
    val_main_v37 (F := Ideal) x0 x1 x2 x3 x4 x5 (ix3 b a j)
      = rowMax (fun jj => val_main_v32 (F := Ideal) x0 x1 x2 x3 x4 x5 (ix3 b a jj)) := by
  have hi : idx_main_v36 (idx_main_v37 (ix3 b a j)) = ix2 b a := by funext d; apply Fin.ext; match d with | ⟨0, _⟩ => rfl | ⟨1, _⟩ => rfl
  rw [val_main_v37_apply, val_main_v36_apply, hi, val_main_v35_apply, val_main_v34_apply, val_main_cst_5_apply]
  unfold val_main_v33
  rw [LibReduceLast3.hostMaxLast_apply _ _ reducesTo_S8192x4x128_S8192x4_d2 (by decide) h_S_ b a, val_main_cst_4_apply]
  show max negInf ((Finset.univ : Finset (Fin 128)).fold max (Ideal.ofBits .f32 0xFF800000#32) _) = _
  rw [Gcn.Lib.ofBits_neg_inf_f32]
  rfl

/-- THE REFERENCE'S RESULT at (b, a, j) is the specification's. -/
theorem result_apply (x0 : (⟨S8192x512, .f32⟩ : BufTy).Contents (Elt Ideal)) (x1 : (⟨S8192x128x64, .f32⟩ : BufTy).Contents (Elt Ideal)) (x2 : (⟨S512x256, .f32⟩ : BufTy).Contents (Elt Ideal)) (x3 : (⟨S256, .f32⟩ : BufTy).Contents (Elt Ideal)) (x4 : (⟨S512x4, .f32⟩ : BufTy).Contents (Elt Ideal)) (x5 : (⟨S4, .f32⟩ : BufTy).Contents (Elt Ideal)) (b : Fin 8192) (a : Fin 4) (j : Fin 128) :
    val_main_v43 (F := Ideal) x0 x1 x2 x3 x4 x5 (ix3 b a j)
      = outRow (fun k => x0 (ix2 b k)) (fun jj w => x1 (ix3 b jj w)) (fun k c => x2 (ix2 k c)) (fun c => x3 (ix1 c)) (fun k a' => x4 (ix2 k a')) (fun a' => x5 (ix1 a')) a j := by
  have he : ∀ jj : Fin 128, val_main_v39 (F := Ideal) x0 x1 x2 x3 x4 x5 (ix3 b a jj)
      = Ideal.exp (val_main_v32 (F := Ideal) x0 x1 x2 x3 x4 x5 (ix3 b a jj)
          - rowMax (fun jj' => val_main_v32 (F := Ideal) x0 x1 x2 x3 x4 x5 (ix3 b a jj'))) := fun jj => by
    rw [val_main_v39_apply, val_main_v38_apply, rowmax_apply]
    rfl
  have hs : val_main_v42 (F := Ideal) x0 x1 x2 x3 x4 x5 (ix3 b a j)
      = ∑ jj : Fin 128, Ideal.exp (val_main_v32 (F := Ideal) x0 x1 x2 x3 x4 x5 (ix3 b a jj)
          - rowMax (fun jj' => val_main_v32 (F := Ideal) x0 x1 x2 x3 x4 x5 (ix3 b a jj'))) := by
    have hi : idx_main_v41 (idx_main_v42 (ix3 b a j)) = ix2 b a := by funext d; apply Fin.ext; match d with | ⟨0, _⟩ => rfl | ⟨1, _⟩ => rfl
    have hk : ∀ k : Fin 128, idx_main_v40 (ix2 b a) k = ix3 b a k := fun k => by funext d; apply Fin.ext; match d with | ⟨0, _⟩ => rfl | ⟨1, _⟩ => rfl | ⟨2, _⟩ => rfl
    rw [val_main_v42_apply, val_main_v41_apply, hi, val_main_v40_apply, val_main_cst_6_apply]
    simp only [hk, he]
    exact zero_add' _
  rw [val_main_v43_apply, he, hs]
  simp only [logit_apply]
  rfl

/-- The reference's result array is the specification's array of the arguments. -/
theorem result_eq (x0 : (⟨S8192x512, .f32⟩ : BufTy).Contents (Elt Ideal)) (x1 : (⟨S8192x128x64, .f32⟩ : BufTy).Contents (Elt Ideal)) (x2 : (⟨S512x256, .f32⟩ : BufTy).Contents (Elt Ideal)) (x3 : (⟨S256, .f32⟩ : BufTy).Contents (Elt Ideal)) (x4 : (⟨S512x4, .f32⟩ : BufTy).Contents (Elt Ideal)) (x5 : (⟨S4, .f32⟩ : BufTy).Contents (Elt Ideal)) :
    val_main_v43 (F := Ideal) x0 x1 x2 x3 x4 x5 = Addressing.result x0 x1 x2 x3 x4 x5 := by
  funext i
  obtain ⟨b, a, j, rfl⟩ : ∃ (b : Fin 8192) (a : Fin 4) (j : Fin 128), i = ix3 b a j := ⟨i 0, i 1, i 2, eq_ix3 i⟩
  exact result_apply x0 x1 x2 x3 x4 x5 b a j

end Cert.ReferenceIdeal.RefValue

end
-- ==== Proof.lean ====
/-
  Content addressing of a memory by cosine similarity: a Pallas kernel against its jnp reference, on the extended reals.

  Both programs map hidden states [8192, 512], a memory [8192, 128, 64] and four parameter arrays to read weights
  [8192, 4, 128]: per batch row and head, the softmax over the 128 memory rows of
      (key · memory row) / (sqrt ((|key|² + ε) (|memory row|² + ε)) + ε) · β,
  with key = tanh (hidden · Wk + bk) cut into four heads of 64 and β = softplus (hidden · Wβ + bβ).
  The kernel works on 256 batch rows per grid point with the memory in a flat [8192, 8192] view, keeps the key and
  strength tiles in scratch buffers, and fills its [256, 512] output block head by head in a counted loop; the program
  reshapes the flat [8192, 512] result to [8192, 4, 128]. The reference computes the arrays whole.
  The two agree entry by entry with no algebra beyond re-indexing: every sum runs over the same terms in both, every
  product has its factors in the same order, and the literals (ε, 0, -∞) are the same words. The three places where the
  spellings differ — a sum started from an explicit zero, a negation written as a subtraction from zero, and a
  self-comparison guard inside softplus that is ordered in one program and unordered in the other — are equal on every
  extended real, so the precondition (finite inputs) is not used.
  The modules: Spec (the row function both sides meet), HeadPayload and Projections (the kernel body's arithmetic at an
  entry), BlockValue (the loop's four stores are one block function), ArrayValue (the 32 blocks tile the flat result;
  the reshapes around the region), RefSide (the reference at an entry). The frames of the two kernels are the generated
  ones; the reference's frame is its generated run with the result dropped; the idealization rewrote nothing.
-/
import proofs.«118651_j86260123174144_2_alg».proof.Defs
import proofs.«118651_j86260123174144_2_alg».proof.Proof.Gen.Kernel
import proofs.«118651_j86260123174144_2_alg».proof.Proof.Gen.Kernel.Skeleton
import proofs.«118651_j86260123174144_2_alg».proof.Proof.Gen.Kernel.Loops
import proofs.«118651_j86260123174144_2_alg».proof.Proof.Gen.Kernel.Launch
import proofs.«118651_j86260123174144_2_alg».proof.Proof.Gen.Kernel.Points
import proofs.«118651_j86260123174144_2_alg».proof.Proof.Gen.Kernel.Frame
import proofs.«118651_j86260123174144_2_alg».proof.Proof.Gen.KernelIdeal
import proofs.«118651_j86260123174144_2_alg».proof.Proof.Gen.KernelIdeal.Skeleton
import proofs.«118651_j86260123174144_2_alg».proof.Proof.Gen.KernelIdeal.Loops
import proofs.«118651_j86260123174144_2_alg».proof.Proof.Gen.KernelIdeal.Launch
import proofs.«118651_j86260123174144_2_alg».proof.Proof.Gen.KernelIdeal.Points
import proofs.«118651_j86260123174144_2_alg».proof.Proof.Gen.KernelIdeal.Frame
import proofs.«118651_j86260123174144_2_alg».proof.Proof.Gen.ReferenceIdeal
import proofs.«118651_j86260123174144_2_alg».proof.Proof.Gen.ReferenceIdeal.Run
import proofs.«118651_j86260123174144_2_alg».proof.Proof.Gen.ReferenceIdeal.Read
import proofs.«118651_j86260123174144_2_alg».proof.Proof.Gen.Pre_finite_inputs
import proofs.«118651_j86260123174144_2_alg».proof.Proof.ArrayValue
import proofs.«118651_j86260123174144_2_alg».proof.Proof.RefSide
import Idealize.ShloMosaic.Adequacy
import Idealize.ShloMosaic.Init

noncomputable section

namespace Cert.Proof

open Idealize.ShloMosaic Idealize.ShloMosaic.TcCoe Idealize.SL.Sem

/-- The word-level kernel terminates without a fault and keeps its arguments. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The reference is a straight line of host operations: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- On the extended reals both programs end with the specification's array of their (agreeing) arguments. -/
theorem algebraic : Cert.algebraic_KernelIdeal_ReferenceIdeal := by
  intro m ρ m' ρ' _ hagree
  refine ⟨_, Cert.KernelIdeal.ArrayValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v43_eq, Cert.ReferenceIdeal.RefValue.result_eq,
    (hagree c).1, (hagree c).2.1, (hagree c).2.2.1, (hagree c).2.2.2.1, (hagree c).2.2.2.2.1, (hagree c).2.2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
